-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x256 : Shape := ⟨2, ![16384, 256]⟩
abbrev S256x256 : Shape := ⟨2, ![256, 256]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S16384x16384 .f32) (main_arg1 : FVec F S16384x256 .f32) (main_arg2 : FVec F S256x256 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S16384x16384 : Shape := ⟨2, ![16384, 16384]⟩
abbrev S16384x256 : Shape := ⟨2, ![16384, 256]⟩
abbrev S256x256 : Shape := ⟨2, ![256, 256]⟩
abbrev S16384x1 : Shape := ⟨2, ![16384, 1]⟩
abbrev S2048x2048 : Shape := ⟨2, ![2048, 2048]⟩
abbrev S2048x256 : Shape := ⟨2, ![2048, 256]⟩
abbrev S2048x1 : Shape := ⟨2, ![2048, 1]⟩
abbrev S2048 : Shape := ⟨1, ![2048]⟩
abbrev S1024x2048 : Shape := ⟨2, ![1024, 2048]⟩
abbrev S1024x1 : Shape := ⟨2, ![1024, 1]⟩
abbrev S1024x256 : Shape := ⟨2, ![1024, 256]⟩

abbrev nBuf : Space → Nat
  | .hbm => 6
  | .vmem => 18
  | .smem => 0
  | _ => 0

abbrev bufTy : (tb : Table) → Fin (tcTables nBuf tb) → BufTy
  | .hbm, ⟨0, _⟩ => ⟨S16384x16384, .f32⟩
  | .hbm, ⟨1, _⟩ => ⟨S16384x256, .f32⟩
  | .hbm, ⟨2, _⟩ => ⟨S256x256, .f32⟩
  | .hbm, ⟨3, _⟩ => ⟨S16384x256, .f32⟩
  | .hbm, ⟨4, _⟩ => ⟨S16384x1, .f32⟩
  | .hbm, ⟨5, _⟩ => ⟨S16384x256, .f32⟩
  | .local _ .vmem, ⟨0, _⟩ => ⟨S2048x2048, .f32⟩
  | .local _ .vmem, ⟨1, _⟩ => ⟨S2048x2048, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S1024x2048, .f32⟩
  | .local _ .vmem, ⟨10, _⟩ => ⟨S1024x2048, .f32⟩
  | .local _ .vmem, ⟨11, _⟩ => ⟨S16384x256, .f32⟩
  | .local _ .vmem, ⟨12, _⟩ => ⟨S1024x1, .f32⟩
  | .local _ .vmem, ⟨13, _⟩ => ⟨S1024x1, .f32⟩
  | .local _ .vmem, ⟨14, _⟩ => ⟨S256x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 8], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_7 : BitVec 32 := 0#32
  let v17 : BitVec 1 := Scalar.cmpi .ne v16 c0_i32_7
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [1] S2048
  shapeCasts_S2048_S2048x1 : S2048.ShapeCasts S2048x1
  inb_S2048x256_S2048x256_0_0 : ∀ a, (![0, 0] : Fin 2 → Nat) a + S2048x256.size a ≤ S2048x256.size a
  h_S2048x256 : 0 < S2048x256.numel
  broadcasts_S2048x1_S2048x256 : S2048x1.Broadcasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S2048x256_S2048x256 : S2048x256.ShapeCasts S2048x256
  inb_S1024x2048_S1024x2048_0_0 : ∀ a, (![0, 0] : Fin 2 → Nat) a + S1024x2048.size a ≤ S1024x2048.size a
  h_S1024x2048 : 0 < S1024x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x16384.size a
  hwx0_0 : ∀ i : grid0.Coords, EltTy.bits .f32 = 32 ∨ (Rect.block (s := S16384x16384) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .f32 = 32 ∨ (Rect.block (s := S16384x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S16384x1.size a
  hwx0_3 : ∀ i : grid0.Coords, EltTy.bits .f32 = 32 ∨ (Rect.block (s := S16384x1) S2048x1.size (cc0_transform_3 i) (hinb0_3 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x256.size a ≤ S16384x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x256.size a ≤ S16384x256.size a
  hwx1_1 : ∀ i : grid1.Coords, EltTy.bits .f32 = 32 ∨ (Rect.block (s := S16384x256) S16384x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S16384x1.size a
  hwx1_2 : ∀ i : grid1.Coords, EltTy.bits .f32 = 32 ∨ (Rect.block (s := S16384x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S16384x256.size a
  hwx1_4 : ∀ i : grid1.Coords, EltTy.bits .f32 = 32 ∨ (Rect.block (s := S16384x256) S1024x256.size (cc1_transform_4 i) (hinb1_4 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2048x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S16384x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x256 : Shape := ⟨2, ![16384, 256]⟩
abbrev S256x256 : Shape := ⟨2, ![256, 256]⟩
abbrev S_ : Shape := ⟨0, ![]⟩
abbrev S16384 : Shape := ⟨1, ![16384]⟩
abbrev S16384x1 : Shape := ⟨2, ![16384, 1]⟩

abbrev nBuf : Space → Nat
  | .hbm => 19
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x256, .f32⟩
  | .hbm, ⟨2, _⟩ => ⟨S256x256, .f32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S16384x1, .f32⟩
  | .hbm, ⟨12, _⟩ => ⟨S16384x256, .f32⟩
  | .hbm, ⟨13, _⟩ => ⟨S16384x256, .f32⟩
  | .hbm, ⟨14, _⟩ => ⟨S16384x256, .f32⟩
  | .hbm, ⟨15, _⟩ => ⟨S16384x1, .f32⟩
  | .hbm, ⟨16, _⟩ => ⟨S16384x256, .f32⟩
  | .hbm, ⟨17, _⟩ => ⟨S16384x256, .f32⟩
  | .hbm, ⟨18, _⟩ => ⟨S16384x256, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  dot_S16384x16384_S16384x256_S16384x256_1_0_0_1_n_n_wf : DotDims.WF S16384x16384 S16384x256 S16384x256 [1] [0] [0] [1] [] []
  dot_S16384x256_S256x256_S16384x256_1_0_0_1_n_n_wf : DotDims.WF S16384x256 S256x256 S16384x256 [1] [0] [0] [1] [] []

variable [Facts₀]

def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.K.R0Base.lean ====
/-
  Region 0 (the degree-and-scale kernel, grid 8 × 8) — what its three control cases share.
  The kernel keeps a running row sum in a scratch column: at the first step of a row block (k = 0) it zeroes the
  column, at every step it adds the row sums of the current 2048 × 2048 block of the adjacency matrix, and at the
  last step (k = 7) it turns the column into d = rsqrt(max(deg, eps)) and writes d and feat · d out.
  Here: a window's block read off the array the region finds, the two branch conditions in closed form over the
  64 grid points, where the two output windows are idle, and the region invariant's scratch column named.
-/
import proofs.«100336_j31576599560639_2_alg».proof.Proof.Gen.Kernel.Launch
import proofs.«100336_j31576599560639_2_alg».proof.Proof.Gen.Kernel.Skeleton
import proofs.«100336_j31576599560639_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency block sits in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The feature block sits in its staging buffer at every point: it is fetched when the row block changes and
    stays while k runs. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions -/

/-- k = 0: the scratch column is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- k = 7: the epilogue writes the two outputs. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last step the two outputs are idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last step they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

abbrev VO0_2 : View sig .tc .vmem S2048x256 .f32 := (Memref.whole cc0_stg2_0 : Memref sig .tc .vmem S2048x256 .f32).view
abbrev VO0_3 : View sig .tc .vmem S2048x1 .f32 := (Memref.whole cc0_stg3_0 : Memref sig .tc .vmem S2048x1 .f32).view
abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)
/-- The scratch column. -/
abbrev scM0_0 : Memref sig .tc .vmem S2048x1 .f32 := Memref.whole cc0_scratch0
abbrev VS0_0 : View sig .tc .vmem S2048x1 .f32 := scM0_0.view

/-- The scoped buffers region 0 never touches (the other region's staging buffers and scratch), each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's class invariant with the scratch column named. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

end Cert.Kernel.Hand

end
-- ==== Proof.K.R0RunA.lean ====
/-
  Region 0, the first step of a row block (k = 0): the body zeroes the scratch column and adds the row sums of the
  adjacency block to it; the two output buffers are not touched. The scratch column's final contents are recorded
  as the list of stores the symbolic run of the body finds.
-/
import proofs.«100336_j31576599560639_2_alg».proof.Proof.K.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores into the scratch column at k = 0, with the body's triple: inputs and untouched outputs handed back,
    the scratch column (entered at anything) left with those stores written. -/
noncomputable def kernelRun0_A (c : Dev nD) (i : grid0.Coords) (arg2 : Memref sig .tc .vmem S2048x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x2048 .f32) (x1 : Vec F S2048x256 .f32) :
    { LS0 : List (View.Piece (Elt F) S2048x1 .f32) //
      ∀ (xi2 : Vec F S2048x256 .f32) (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__degree_and_scale_kernel i arg2 harg2 arg3 harg3 arg4 harg4 arg5 harg5 arg6 harg6) K } := by
  refine ⟨?_, fun xi2 xi3 E K => ?run⟩
  case run =>
    simp only [cc0__degree_and_scale_kernel_eq_skeleton]; unfold cc0__degree_and_scale_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R0RunB.lean ====
/-
  Region 0, a middle step (0 < k < 7): the body adds the row sums of the adjacency block to the scratch column the
  step before left; the two output buffers are not touched.
-/
import proofs.«100336_j31576599560639_2_alg».proof.Proof.K.R0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores into the scratch column at a middle step, with the body's triple: the scratch column entered at
    what the step before left (`xs0`). -/
noncomputable def kernelRun0_B (c : Dev nD) (i : grid0.Coords) (arg2 : Memref sig .tc .vmem S2048x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x2048 .f32) (x1 : Vec F S2048x256 .f32) (xs0 : Vec F S2048x1 .f32) :
    { LS0 : List (View.Piece (Elt F) S2048x1 .f32) //
      ∀ (xi2 : Vec F S2048x256 .f32) (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__degree_and_scale_kernel i arg2 harg2 arg3 harg3 arg4 harg4 arg5 harg5 arg6 harg6) K } := by
  refine ⟨?_, fun xi2 xi3 E K => ?run⟩
  case run =>
    simp only [cc0__degree_and_scale_kernel_eq_skeleton]; unfold cc0__degree_and_scale_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R0RunC.lean ====
/-
  Region 0, the last step of a row block (k = 7): the body adds the row sums of the adjacency block to the scratch
  column, then stores d = rsqrt(max(column, eps)) into the d output buffer and feat · d into the x1 output buffer.
-/
import proofs.«100336_j31576599560639_2_alg».proof.Proof.K.R0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores into the two output buffers and into the scratch column at the last step, with the body's triple. -/
noncomputable def kernelRun0_C (c : Dev nD) (i : grid0.Coords) (arg2 : Memref sig .tc .vmem S2048x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x2048 .f32) (x1 : Vec F S2048x256 .f32) (xs0 : Vec F S2048x1 .f32) :
    Σ' (L2 : List (View.Piece (Elt F) S2048x256 .f32)) (L3 : List (View.Piece (Elt F) S2048x1 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__degree_and_scale_kernel i arg2 harg2 arg3 harg3 arg4 harg4 arg5 harg5 arg6 harg6) K } := by
  refine ⟨?_, ?_, ?_, fun E K => ?run⟩
  case run =>
    simp only [cc0__degree_and_scale_kernel_eq_skeleton]; unfold cc0__degree_and_scale_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.Kernel.Hand

end
-- ==== Proof.K.R0Frame.lean ====
/-
  Region 0 as a pipeline with a carried scratch column: what the scratch column and the two output buffers hold after
  each grid point (a recursion over the points: zeroed-then-added at k = 0, added to otherwise, read into the outputs
  at k = 7), the region invariant that carries the column from one point to the next, the proof data, and the body's
  obligation at every point. Everything is stated at the array contents `V` the region is entered with.
-/
import proofs.«100336_j31576599560639_2_alg».proof.Proof.K.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem ncond0_0 (t : Fin cfg0.N) (h : ¬t.val % 8 = 0) : ¬cond0_0 (grid0.coords t) := fun h' => h ((hcond0_0 t).mp h')
theorem ncond0_1 (t : Fin cfg0.N) (h : ¬t.val % 8 = 7) : ¬cond0_1 (grid0.coords t) := fun h' => h ((hcond0_1 t).mp h')

/-- What an output buffer "holds" at a point that leaves it idle: nothing anyone reads. -/
def idle0_2 : Vec F S2048x256 .f32 := VO0_2.read (Elt F) (VO0_2.writes (Elt F) VO0_2.junk [])
def idle0_3 : Vec F S2048x1 .f32 := VO0_3.read (Elt F) (VO0_3.writes (Elt F) VO0_3.junk [])

/-! ## The three cases at a grid point -/

/-- k = 0: the stores into the scratch column. -/
def runA0 (c : Dev nD) (t : Fin cfg0.N) (h0 : t.val % 8 = 0) (h7 : ¬t.val % 8 = 7) :=
  kernelRun0_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (ncond0_1 t h7) (iblk0 V c 0 t) (iblk0 V c 1 t)
/-- 0 < k < 7. -/
def runB0 (c : Dev nD) (t : Fin cfg0.N) (h0 : ¬t.val % 8 = 0) (h7 : ¬t.val % 8 = 7) (xs0 : Vec F S2048x1 .f32) :=
  kernelRun0_B (F := F) c (grid0.coords t) (ms0_0 t) (hs0_0 t) (ms0_1 t) (hs0_1 t) (ms0_2 t) (hs0_2 t) (ms0_3 t) (hs0_3 t) scM0_0 (Memref.isWhole_whole _) (ncond0_0 t h0) (ncond0_1 t h7) (iblk0 V c 0 t) (iblk0 V c 1 t) xs0
/-- k = 7. -/
def runC0 (c : Dev nD) (t : Fin cfg0.N) (h0 : ¬t.val % 8 = 0) (h7 : t.val % 8 = 7) (xs0 : Vec F S2048x1 .f32) :=
  kernelRun0_C (F := F) c (grid0.coords t) (ms0_0 t) (hs0_0 t) (ms0_1 t) (hs0_1 t) (ms0_2 t) (hs0_2 t) (ms0_3 t) (hs0_3 t) scM0_0 (Memref.isWhole_whole _) (ncond0_0 t h0) ((hcond0_1 t).mpr h7) (iblk0 V c 0 t) (iblk0 V c 1 t) xs0

theorem scoverA0 (c : Dev nD) (t : Fin cfg0.N) (h0 : t.val % 8 = 0) (h7 : ¬t.val % 8 = 7) (y : S2048x1.Idx) :
    ∃ pc ∈ (runA0 V c t h0 h7).1, y ∈ pc.1.set :=
  View.cover_of_tiledL (runA0 V c t h0 h7).1 S2048x1.size (by unfold runA0; sl_kernel_rfl) y
theorem scoverB0 (c : Dev nD) (t : Fin cfg0.N) (h0 : ¬t.val % 8 = 0) (h7 : ¬t.val % 8 = 7) (xs0 : Vec F S2048x1 .f32) (y : S2048x1.Idx) :
    ∃ pc ∈ (runB0 V c t h0 h7 xs0).1, y ∈ pc.1.set :=
  View.cover_of_tiledL (runB0 V c t h0 h7 xs0).1 S2048x1.size (by unfold runB0; sl_kernel_rfl) y
theorem scoverC0 (c : Dev nD) (t : Fin cfg0.N) (h0 : ¬t.val % 8 = 0) (h7 : t.val % 8 = 7) (xs0 : Vec F S2048x1 .f32) (y : S2048x1.Idx) :
    ∃ pc ∈ (runC0 V c t h0 h7 xs0).2.2.1, y ∈ pc.1.set :=
  View.cover_of_tiledL (runC0 V c t h0 h7 xs0).2.2.1 S2048x1.size (by unfold runC0; sl_kernel_rfl) y
theorem coverC0_2 (c : Dev nD) (t : Fin cfg0.N) (h0 : ¬t.val % 8 = 0) (h7 : t.val % 8 = 7) (xs0 : Vec F S2048x1 .f32) (y : S2048x256.Idx) :
    ∃ pc ∈ (runC0 V c t h0 h7 xs0).1, y ∈ pc.1.set :=
  View.cover_of_tiledL (runC0 V c t h0 h7 xs0).1 S2048x256.size (by unfold runC0; sl_kernel_rfl) y
theorem coverC0_3 (c : Dev nD) (t : Fin cfg0.N) (h0 : ¬t.val % 8 = 0) (h7 : t.val % 8 = 7) (xs0 : Vec F S2048x1 .f32) (y : S2048x1.Idx) :
    ∃ pc ∈ (runC0 V c t h0 h7 xs0).2.1, y ∈ pc.1.set :=
  View.cover_of_tiledL (runC0 V c t h0 h7 xs0).2.1 S2048x1.size (by unfold runC0; sl_kernel_rfl) y

/-- The scratch column after the body, case by case: its stores read back. -/
def sA0 (c : Dev nD) (t : Fin cfg0.N) (h0 : t.val % 8 = 0) (h7 : ¬t.val % 8 = 7) : Vec F S2048x1 .f32 :=
  VS0_0.read (Elt F) (VS0_0.writes (Elt F) VS0_0.junk (runA0 V c t h0 h7).1)
def sB0 (c : Dev nD) (t : Fin cfg0.N) (h0 : ¬t.val % 8 = 0) (h7 : ¬t.val % 8 = 7) (xs0 : Vec F S2048x1 .f32) : Vec F S2048x1 .f32 :=
  VS0_0.read (Elt F) (VS0_0.writes (Elt F) VS0_0.junk (runB0 V c t h0 h7 xs0).1)
def sC0 (c : Dev nD) (t : Fin cfg0.N) (h0 : ¬t.val % 8 = 0) (h7 : t.val % 8 = 7) (xs0 : Vec F S2048x1 .f32) : Vec F S2048x1 .f32 :=
  VS0_0.read (Elt F) (VS0_0.writes (Elt F) VS0_0.junk (runC0 V c t h0 h7 xs0).2.2.1)
/-- The two output buffers after the body at k = 7. -/
def oC0_2 (c : Dev nD) (t : Fin cfg0.N) (h0 : ¬t.val % 8 = 0) (h7 : t.val % 8 = 7) (xs0 : Vec F S2048x1 .f32) : Vec F S2048x256 .f32 :=
  VO0_2.read (Elt F) (VO0_2.writes (Elt F) VO0_2.junk (runC0 V c t h0 h7 xs0).1)
def oC0_3 (c : Dev nD) (t : Fin cfg0.N) (h0 : ¬t.val % 8 = 0) (h7 : t.val % 8 = 7) (xs0 : Vec F S2048x1 .f32) : Vec F S2048x1 .f32 :=
  VO0_3.read (Elt F) (VO0_3.writes (Elt F) VO0_3.junk (runC0 V c t h0 h7 xs0).2.1)

/-! ## Point by point -/

/-- After the body at position `n`: (x1 output buffer, d output buffer, scratch column). The scratch column of a step
    with k > 0 is computed from the one the step before left. -/
def outsAt0 (c : Dev nD) : (n : ℕ) → n < cfg0.N → Vec F S2048x256 .f32 × Vec F S2048x1 .f32 × Vec F S2048x1 .f32
  | 0, hn => (idle0_2, idle0_3, sA0 V c ⟨0, hn⟩ (Nat.zero_mod _) (by show ¬(0 % 8 = 7); omega))
  | n + 1, hn =>
    if h0 : (n + 1) % 8 = 0 then
      (idle0_2, idle0_3, sA0 V c ⟨n + 1, hn⟩ h0 (by show ¬((n + 1) % 8 = 7); omega))
    else if h7 : (n + 1) % 8 = 7 then
      (oC0_2 V c ⟨n + 1, hn⟩ h0 h7 (outsAt0 c n (Nat.lt_of_succ_lt hn)).2.2, oC0_3 V c ⟨n + 1, hn⟩ h0 h7 (outsAt0 c n (Nat.lt_of_succ_lt hn)).2.2,
        sC0 V c ⟨n + 1, hn⟩ h0 h7 (outsAt0 c n (Nat.lt_of_succ_lt hn)).2.2)
    else
      (idle0_2, idle0_3, sB0 V c ⟨n + 1, hn⟩ h0 h7 (outsAt0 c n (Nat.lt_of_succ_lt hn)).2.2)

theorem outsAt0_A (c : Dev nD) (t : Fin cfg0.N) (h0 : t.val % 8 = 0) (h7 : ¬t.val % 8 = 7) :
    outsAt0 V c t.val t.isLt = (idle0_2, idle0_3, sA0 V c t h0 h7) := by
  obtain ⟨n, hn⟩ := t
  cases n with
  | zero => rfl
  | succ n => exact (dif_pos h0).trans rfl

theorem outsAt0_B (c : Dev nD) (t : Fin cfg0.N) (h0 : ¬t.val % 8 = 0) (h7 : ¬t.val % 8 = 7) :
    outsAt0 V c t.val t.isLt = (idle0_2, idle0_3, sB0 V c t h0 h7 (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h7).trans rfl)

theorem outsAt0_C (c : Dev nD) (t : Fin cfg0.N) (h0 : ¬t.val % 8 = 0) (h7 : t.val % 8 = 7) :
    outsAt0 V c t.val t.isLt = (oC0_2 V c t h0 h7 (outsAt0 V c (t.val - 1) (Nat.lt_of_le_of_lt (Nat.sub_le _ _) t.isLt)).2.2,
      oC0_3 V c t h0 h7 (outsAt0 V c (t.val - 1) (Nat.lt_of_le_of_lt (Nat.sub_le _ _) t.isLt)).2.2,
      sC0 V c t h0 h7 (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h7).trans rfl)

/-! ## The region invariant -/

/-- Before position `n`: at the start the class invariant (every scoped buffer at anything); afterwards the scratch
    column at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2) ∗ Rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ Rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the closed forms say which case the point is in; the invariant hands the body the scratch
    column at what the point before left (at anything at the very first point) and takes it back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h7 : t.val % 8 = 7
  · have h0 : ¬t.val % 8 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h7)], after0_2]
    rw [show (dat0 V c).leavesExact 3 t = owns (c : Thread nD τ) (ms0_3 t) fullShare ((dat0 V c).after 3 t) from by
      unfold Dat.leavesExact; rw [liveAt0_3 t ((hcond0_1 t).mpr h7)], after0_3]
    rw [outsAt0_C V c t h0 h7]
    unfold oC0_2 oC0_3 sC0; (try dsimp only)
    rw [PhiS0_castSucc V c t, PhiS0_pos V c _ _ hz]
    iintro ⟨⟨⟨HS0, HR⟩, Hg⟩, Ho, ⟨%d0, H0⟩, ⟨%d1, H1⟩, ⟨%d2, H2⟩, ⟨%d3, H3⟩⟩
    iapply ((runC0 V c t h0 h7 _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scoverC0 V c t h0 h7 _)
        iexact HR
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverC0_2 V c t h0 h7 _)
    unfold owns; iexists _; isplitr
    swap; · iexact H3
    ipureintro; exact View.read_writes_of_cover _ _ _ _ _ (coverC0_3 V c t h0 h7 _)
  · rw [Dat.leavesExact_idle (dat0 V c) 2 t (idleAt0_2 t (ncond0_1 t h7)) (noFlush0_2 t (ncond0_1 t h7))]
    rw [Dat.leavesExact_idle (dat0 V c) 3 t (idleAt0_3 t (ncond0_1 t h7)) (noFlush0_3 t (ncond0_1 t h7))]
    by_cases h0 : t.val % 8 = 0
    · rw [outsAt0_A V c t h0 h7]
      unfold sA0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩⟩
        iapply ((runA0 V c t h0 h7).2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scoverA0 V c t h0 h7)
            iexact HR
          iexact Hg
        isplitl [Ho]; · iexact Ho
        isplitl [H0]; · iexact H0
        isplitl [H1]; · iexact H1
        isplitl [H2]; · iexists _; iexact H2
        iexists _; iexact H3
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((runA0 V c t h0 h7).2 _ _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scoverA0 V c t h0 h7)
            iexact HR
          iexact Hg
        isplitl [Ho]; · iexact Ho
        isplitl [H0]; · iexact H0
        isplitl [H1]; · iexact H1
        isplitl [H2]; · iexists _; iexact H2
        iexists _; iexact H3
    · have hz : t.val ≠ 0 := by omega
      rw [outsAt0_B V c t h0 h7]
      unfold sB0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((runB0 V c t h0 h7 _).2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverB0 V c t h0 h7 _)
          iexact HR
        iexact Hg
      isplitl [Ho]; · iexact Ho
      isplitl [H0]; · iexact H0
      isplitl [H1]; · iexact H1
      isplitl [H2]; · iexists _; iexact H2
      iexists _; iexact H3

theorem body_obligation0 (c : Dev nD) : BodyObligation (dat0 (F := F) V c) (defs₀ (F := F)) Variants.none () Set.univ := fun t => by
  rw [bigSep_W0, bigSep_W0]
  exact sound_body0 V c t

/-- The class invariant is the region invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the region invariant gives the class invariant back: the scratch column's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, HR⟩, Hg⟩
  isplitl [HS0 HR]
  · isplitl [HS0]
    · iexists _; iexact HS0
    iexact HR
  iexact Hg

end Cert.Kernel.Hand

end
-- ==== Proof.K.R1Base.lean ====
/-
  Region 1 (the propagation kernel, grid 16 × 8) — what its three control cases share.
  The kernel keeps a 1024 × 256 accumulator in scratch: at the first step of a row block (k = 0) it zeroes it, at every
  step it adds (adjacency block) · (rows k·2048 … of x1), and at the last step (k = 7) it scales the rows by d, multiplies
  by the weight matrix and writes the result block out.
-/
import proofs.«100336_j31576599560639_2_alg».proof.Proof.Gen.Kernel.Launch
import proofs.«100336_j31576599560639_2_alg».proof.Proof.Gen.Kernel.Skeleton
import proofs.«100336_j31576599560639_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions -/

/-- k = 0: the accumulator is zeroed. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- k = 7: the epilogue writes the result block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last step the output is idle and not written back; at the last step it is live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

abbrev VO1_4 : View sig .tc .vmem S1024x256 .f32 := (Memref.whole cc1_stg4_0 : Memref sig .tc .vmem S1024x256 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The accumulator. -/
abbrev scM1_0 : Memref sig .tc .vmem S1024x256 .f32 := Memref.whole cc1_scratch0
abbrev VS1_0 : View sig .tc .vmem S1024x256 .f32 := scM1_0.view

/-- The scoped buffers region 1 never touches (region 0's staging buffers and scratch column), each at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The region's class invariant with the accumulator split off (it is the last scoped buffer of the list), -/
theorem PhiA1_split (c : Dev nD) :
    (Pipeline.ΦA spec1 c : sProp 𝕄)
      ⊢ iprop(iprop((∃ d, owns (c : Thread nD τ) scM1_0 fullShare d) ∗ Rest1 c) ∗ (∃ r, prngReg c r)) := by
  unfold Pipeline.ΦA Rest1; rw [scopedRest1_eq]; simp only [scM1_0, owns_whole]
  iintro ⟨⟨R1, R2, R3, R4, R5, R6, R7, R8, R9, HS⟩, Hg⟩
  isplitr [Hg]
  · isplitl [HS]; · iexact HS
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  iexact Hg

/-- and put back. -/
theorem PhiA1_join (c : Dev nD) :
    (iprop(iprop((∃ d, owns (c : Thread nD τ) scM1_0 fullShare d) ∗ Rest1 c) ∗ (∃ r, prngReg c r)) : sProp 𝕄)
      ⊢ Pipeline.ΦA spec1 c := by
  unfold Pipeline.ΦA Rest1; rw [scopedRest1_eq]; simp only [scM1_0, owns_whole]
  iintro ⟨⟨HS, R1, R2, R3, R4, R5, R6, R7, R8, R9⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact HS
  iexact Hg

end Cert.Kernel.Hand

end
-- ==== Proof.K.R1RunA.lean ====
/-
  Region 1, the first step of a row block (k = 0): the body zeroes the accumulator and adds the product of the
  adjacency block with its 2048 rows of x1; the output buffer is not touched.
-/
import proofs.«100336_j31576599560639_2_alg».proof.Proof.K.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S1024x2048 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S256x256 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i)
    (x0 : Vec F S1024x2048 .f32) (x1 : Vec F S16384x256 .f32) (x2 : Vec F S1024x1 .f32) (x3 : Vec F S256x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__prop_kernel i arg2 harg2 arg3 harg3 arg4 harg4 arg5 harg5 arg6 harg6 arg7 harg7) K } := by
  refine ⟨?_, fun xi4 E K => ?run⟩
  case run =>
    simp only [cc1__prop_kernel_eq_skeleton]; unfold cc1__prop_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R1RunB.lean ====
/-
  Region 1, a middle step (0 < k < 7): the body adds the product of the adjacency block with its 2048 rows of x1 to
  the accumulator the step before left; the output buffer is not touched.
-/
import proofs.«100336_j31576599560639_2_alg».proof.Proof.K.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S1024x2048 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S256x256 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i)
    (x0 : Vec F S1024x2048 .f32) (x1 : Vec F S16384x256 .f32) (x2 : Vec F S1024x1 .f32) (x3 : Vec F S256x256 .f32) (xs0 : Vec F S1024x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__prop_kernel i arg2 harg2 arg3 harg3 arg4 harg4 arg5 harg5 arg6 harg6 arg7 harg7) K } := by
  refine ⟨?_, fun xi4 E K => ?run⟩
  case run =>
    simp only [cc1__prop_kernel_eq_skeleton]; unfold cc1__prop_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R1RunC.lean ====
/-
  Region 1, the last step of a row block (k = 7): the body adds the last product to the accumulator, scales its rows
  by d, multiplies by the weight matrix and stores the result block into the output buffer.
-/
import proofs.«100336_j31576599560639_2_alg».proof.Proof.K.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S1024x2048 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S256x256 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i)
    (x0 : Vec F S1024x2048 .f32) (x1 : Vec F S16384x256 .f32) (x2 : Vec F S1024x1 .f32) (x3 : Vec F S256x256 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__prop_kernel i arg2 harg2 arg3 harg3 arg4 harg4 arg5 harg5 arg6 harg6 arg7 harg7) K } := by
  refine ⟨?_, ?_, fun E K => ?run⟩
  case run =>
    simp only [cc1__prop_kernel_eq_skeleton]; unfold cc1__prop_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.R1Frame.lean ====
/-
  Region 1 as a pipeline with a carried accumulator: what the accumulator and the output buffer hold after each grid
  point (zeroed-then-added at k = 0, added to otherwise, read into the output at k = 7), the region invariant that
  carries the accumulator from one point to the next, the proof data, and the body's obligation at every point.
  Everything is stated at the array contents `V` the region is entered with.
-/
import proofs.«100336_j31576599560639_2_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem ncond1_0 (t : Fin cfg1.N) (h : ¬t.val % 8 = 0) : ¬cond1_0 (grid1.coords t) := fun h' => h ((hcond1_0 t).mp h')
theorem ncond1_1 (t : Fin cfg1.N) (h : ¬t.val % 8 = 7) : ¬cond1_1 (grid1.coords t) := fun h' => h ((hcond1_1 t).mp h')

/-- What the output buffer "holds" at a point that leaves it idle: nothing anyone reads. -/
def idle1_4 : Vec F S1024x256 .f32 := VO1_4.read (Elt F) (VO1_4.writes (Elt F) VO1_4.junk [])

/-! ## The three cases at a grid point -/

def runA1 (c : Dev nD) (t : Fin cfg1.N) (h0 : t.val % 8 = 0) (h7 : ¬t.val % 8 = 7) :=
  kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (ncond1_1 t h7) (iblk1 V c 0 t) (iblk1 V c 1 t) (iblk1 V c 2 t) (iblk1 V c 3 t)
def runB1 (c : Dev nD) (t : Fin cfg1.N) (h0 : ¬t.val % 8 = 0) (h7 : ¬t.val % 8 = 7) (xs0 : Vec F S1024x256 .f32) :=
  kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (ncond1_0 t h0) (ncond1_1 t h7) (iblk1 V c 0 t) (iblk1 V c 1 t) (iblk1 V c 2 t) (iblk1 V c 3 t) xs0
def runC1 (c : Dev nD) (t : Fin cfg1.N) (h0 : ¬t.val % 8 = 0) (h7 : t.val % 8 = 7) (xs0 : Vec F S1024x256 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (ncond1_0 t h0) ((hcond1_1 t).mpr h7) (iblk1 V c 0 t) (iblk1 V c 1 t) (iblk1 V c 2 t) (iblk1 V c 3 t) xs0

theorem scoverA1 (c : Dev nD) (t : Fin cfg1.N) (h0 : t.val % 8 = 0) (h7 : ¬t.val % 8 = 7) (y : S1024x256.Idx) :
    ∃ pc ∈ (runA1 V c t h0 h7).1, y ∈ pc.1.set :=
  View.cover_of_tiledL (runA1 V c t h0 h7).1 S1024x256.size (by unfold runA1; sl_kernel_rfl) y
theorem scoverB1 (c : Dev nD) (t : Fin cfg1.N) (h0 : ¬t.val % 8 = 0) (h7 : ¬t.val % 8 = 7) (xs0 : Vec F S1024x256 .f32) (y : S1024x256.Idx) :
    ∃ pc ∈ (runB1 V c t h0 h7 xs0).1, y ∈ pc.1.set :=
  View.cover_of_tiledL (runB1 V c t h0 h7 xs0).1 S1024x256.size (by unfold runB1; sl_kernel_rfl) y
theorem scoverC1 (c : Dev nD) (t : Fin cfg1.N) (h0 : ¬t.val % 8 = 0) (h7 : t.val % 8 = 7) (xs0 : Vec F S1024x256 .f32) (y : S1024x256.Idx) :
    ∃ pc ∈ (runC1 V c t h0 h7 xs0).2.1, y ∈ pc.1.set :=
  View.cover_of_tiledL (runC1 V c t h0 h7 xs0).2.1 S1024x256.size (by unfold runC1; sl_kernel_rfl) y
theorem coverC1_4 (c : Dev nD) (t : Fin cfg1.N) (h0 : ¬t.val % 8 = 0) (h7 : t.val % 8 = 7) (xs0 : Vec F S1024x256 .f32) (y : S1024x256.Idx) :
    ∃ pc ∈ (runC1 V c t h0 h7 xs0).1, y ∈ pc.1.set :=
  View.cover_of_tiledL (runC1 V c t h0 h7 xs0).1 S1024x256.size (by unfold runC1; sl_kernel_rfl) y

/-- The accumulator after the body, case by case: its stores read back. -/
def sA1 (c : Dev nD) (t : Fin cfg1.N) (h0 : t.val % 8 = 0) (h7 : ¬t.val % 8 = 7) : Vec F S1024x256 .f32 :=
  VS1_0.read (Elt F) (VS1_0.writes (Elt F) VS1_0.junk (runA1 V c t h0 h7).1)
def sB1 (c : Dev nD) (t : Fin cfg1.N) (h0 : ¬t.val % 8 = 0) (h7 : ¬t.val % 8 = 7) (xs0 : Vec F S1024x256 .f32) : Vec F S1024x256 .f32 :=
  VS1_0.read (Elt F) (VS1_0.writes (Elt F) VS1_0.junk (runB1 V c t h0 h7 xs0).1)
def sC1 (c : Dev nD) (t : Fin cfg1.N) (h0 : ¬t.val % 8 = 0) (h7 : t.val % 8 = 7) (xs0 : Vec F S1024x256 .f32) : Vec F S1024x256 .f32 :=
  VS1_0.read (Elt F) (VS1_0.writes (Elt F) VS1_0.junk (runC1 V c t h0 h7 xs0).2.1)
/-- The output buffer after the body at k = 7. -/
def oC1_4 (c : Dev nD) (t : Fin cfg1.N) (h0 : ¬t.val % 8 = 0) (h7 : t.val % 8 = 7) (xs0 : Vec F S1024x256 .f32) : Vec F S1024x256 .f32 :=
  VO1_4.read (Elt F) (VO1_4.writes (Elt F) VO1_4.junk (runC1 V c t h0 h7 xs0).1)

/-! ## Point by point -/

/-- After the body at position `n`: (output buffer, accumulator). -/
def outsAt1 (c : Dev nD) : (n : ℕ) → n < cfg1.N → Vec F S1024x256 .f32 × Vec F S1024x256 .f32
  | 0, hn => (idle1_4, sA1 V c ⟨0, hn⟩ (Nat.zero_mod _) (by show ¬(0 % 8 = 7); omega))
  | n + 1, hn =>
    if h0 : (n + 1) % 8 = 0 then
      (idle1_4, sA1 V c ⟨n + 1, hn⟩ h0 (by show ¬((n + 1) % 8 = 7); omega))
    else if h7 : (n + 1) % 8 = 7 then
      (oC1_4 V c ⟨n + 1, hn⟩ h0 h7 (outsAt1 c n (Nat.lt_of_succ_lt hn)).2, sC1 V c ⟨n + 1, hn⟩ h0 h7 (outsAt1 c n (Nat.lt_of_succ_lt hn)).2)
    else
      (idle1_4, sB1 V c ⟨n + 1, hn⟩ h0 h7 (outsAt1 c n (Nat.lt_of_succ_lt hn)).2)

theorem outsAt1_A (c : Dev nD) (t : Fin cfg1.N) (h0 : t.val % 8 = 0) (h7 : ¬t.val % 8 = 7) :
    outsAt1 V c t.val t.isLt = (idle1_4, sA1 V c t h0 h7) := by
  obtain ⟨n, hn⟩ := t
  cases n with
  | zero => rfl
  | succ n => exact (dif_pos h0).trans rfl

theorem outsAt1_B (c : Dev nD) (t : Fin cfg1.N) (h0 : ¬t.val % 8 = 0) (h7 : ¬t.val % 8 = 7) :
    outsAt1 V c t.val t.isLt = (idle1_4, sB1 V c t h0 h7 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

theorem outsAt1_C (c : Dev nD) (t : Fin cfg1.N) (h0 : ¬t.val % 8 = 0) (h7 : t.val % 8 = 7) :
    outsAt1 V c t.val t.isLt = (oC1_4 V c t h0 h7 (outsAt1 V c (t.val - 1) (Nat.lt_of_le_of_lt (Nat.sub_le _ _) t.isLt)).2,
      sC1 V c t h0 h7 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h7).trans rfl)

/-! ## The region invariant -/

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h7 : t.val % 8 = 7
  · have h0 : ¬t.val % 8 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h7)], after1_4]
    rw [outsAt1_C V c t h0 h7]
    unfold oC1_4 sC1; (try dsimp only)
    rw [PhiS1_castSucc V c t, PhiS1_pos V c _ _ hz]
    iintro ⟨⟨⟨HS0, HR⟩, Hg⟩, Ho, ⟨%d0, H0⟩, ⟨%d1, H1⟩, ⟨%d2, H2⟩, ⟨%d3, H3⟩, ⟨%d4, H4⟩⟩
    iapply ((runC1 V c t h0 h7 _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scoverC1 V c t h0 h7 _)
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverC1_4 V c t h0 h7 _)
  · rw [Dat.leavesExact_idle (dat1 V c) 4 t (idleAt1_4 t (ncond1_1 t h7)) (noFlush1_4 t (ncond1_1 t h7))]
    by_cases h0 : t.val % 8 = 0
    · rw [outsAt1_A V c t h0 h7]
      unfold sA1; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩, ⟨%d4, H4⟩⟩
        ihave HΦ' := (PhiA1_split c) $$ HΦ
        icases HΦ' with ⟨⟨HS0, HR⟩, Hg⟩
        iapply ((runA1 V c t h0 h7).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scoverA1 V c t h0 h7)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((runA1 V c t h0 h7).2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scoverA1 V c t h0 h7)
            iexact HR
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := by omega
      rw [outsAt1_B V c t h0 h7]
      unfold sB1; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((runB1 V c t h0 h7 _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverB1 V c t h0 h7 _)
          iexact HR
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- The class invariant is the region invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the region invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ ht]
  iintro ⟨⟨HS0, HR⟩, Hg⟩
  iapply (PhiA1_join c)
  isplitl [HS0 HR]
  · isplitl [HS0]
    · iexists _; iexact HS0
    iexact HR
  iexact Hg

end Cert.Kernel.Hand

end
-- ==== Proof.K.Run.lean ====
/-
  The whole program: the two regions one after the other. The contents of every buffer at each boundary (the launch
  memory; after region 0 its two output arrays at what its write-backs leave; after region 1 the result array likewise),
  each region as a segment of the run between those boundaries, and the run itself: every weakly fair execution ends,
  nothing faults, and every unscoped buffer ends at the last boundary's contents — so the three argument arrays end as
  launched and the result array ends at what region 1's write-backs leave.
-/
import proofs.«100336_j31576599560639_2_alg».proof.Proof.K.R0Frame
import proofs.«100336_j31576599560639_2_alg».proof.Proof.K.R1Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After region 1. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched; the intermediate and result arrays are what the write-backs leave -/

/-- The adjacency matrix is an input window of both regions. -/
theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W2_main_arg0 (c : Dev nD) : W2 m ρ c (Proc.devRef .tc main_arg0) = m ((c : Thread nD τ).loc main_arg0) :=
  ((W2_arr m ρ c 0).trans (((dat1 (V1 m ρ) c).arrAt_in 0 rfl _).trans (A_eq1 (V1 m ρ) c 0))).trans (W1_main_arg0 m ρ c)
/-- The features are an input window of region 0 and bypass region 1. -/
theorem W2_main_arg1 (c : Dev nD) : W2 m ρ c (Proc.devRef .tc main_arg1) = m ((c : Thread nD τ).loc main_arg1) :=
  (W2_of_ne m ρ c main_arg1 (by decide)).trans
    ((W1_arr m ρ c 1).trans (((dat0 (V0 m ρ) c).arrAt_in 1 rfl _).trans (A_eq0 (V0 m ρ) c 1)))
/-- The weights bypass region 0 and are an input window of region 1. -/
theorem W1_main_arg2 (c : Dev nD) : W1 m ρ c (Proc.devRef .tc main_arg2) = m ((c : Thread nD τ).loc main_arg2) :=
  W1_of_ne m ρ c main_arg2 (by decide)
theorem W2_main_arg2 (c : Dev nD) : W2 m ρ c (Proc.devRef .tc main_arg2) = m ((c : Thread nD τ).loc main_arg2) :=
  ((W2_arr m ρ c 3).trans (((dat1 (V1 m ρ) c).arrAt_in 3 rfl _).trans (A_eq1 (V1 m ρ) c 3))).trans (W1_main_arg2 m ρ c)
/-- Region 0's two outputs, as region 1 finds them. -/
theorem V1_main_v0_0 (c : Dev nD) : V1 m ρ c main_v0_0 = (dat0 (V0 m ρ) c).arrAt 2 cfg0.N := W1_arr m ρ c 2
theorem V1_main_v0_1 (c : Dev nD) : V1 m ρ c main_v0_1 = (dat0 (V0 m ρ) c).arrAt 3 cfg0.N := W1_arr m ρ c 3
/-- The result array at the end. -/
theorem W2_main_v1 (c : Dev nD) : W2 m ρ c (Proc.devRef .tc main_v1) = (dat1 (V1 m ρ) c).arrAt 4 cfg1.N := W2_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- Beside the buffers through every segment: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

/-- The class invariant spelt out: the scoped buffers no window stages, each at some contents, and the generator register. -/
theorem hin0' (V : (c : Dev nD) → (b : Ref sig .tc) → Buf (Elt F) ((c : Thread nD τ).loc b)) (c : Dev nD) :
    (iprop(Pipeline.scopedRest (Ix := Unit) (Name := ℕ) (U := UR sig nD τ) (Lvl := ℕ) (Val := Elt F) spec0 c ∗ ∃ r, prngReg c r) : sProp 𝕄) ⊢ (dat0 V c).Φ 0 := hin0 V c
theorem hout0' (V : (c : Dev nD) → (b : Ref sig .tc) → Buf (Elt F) ((c : Thread nD τ).loc b)) (c : Dev nD) :
    (dat0 V c).Φ (Fin.last cfg0.N) ⊢ (iprop(Pipeline.scopedRest (Ix := Unit) (Name := ℕ) (U := UR sig nD τ) (Lvl := ℕ) (Val := Elt F) spec0 c ∗ ∃ r, prngReg c r) : sProp 𝕄) := hout0 V c
theorem hin1' (V : (c : Dev nD) → (b : Ref sig .tc) → Buf (Elt F) ((c : Thread nD τ).loc b)) (c : Dev nD) :
    (iprop(Pipeline.scopedRest (Ix := Unit) (Name := ℕ) (U := UR sig nD τ) (Lvl := ℕ) (Val := Elt F) spec1 c ∗ ∃ r, prngReg c r) : sProp 𝕄) ⊢ (dat1 V c).Φ 0 := hin1 V c
theorem hout1' (V : (c : Dev nD) → (b : Ref sig .tc) → Buf (Elt F) ((c : Thread nD τ).loc b)) (c : Dev nD) :
    (dat1 V c).Φ (Fin.last cfg1.N) ⊢ (iprop(Pipeline.scopedRest (Ix := Unit) (Name := ℕ) (U := UR sig nD τ) (Lvl := ℕ) (Val := Elt F) spec1 c ∗ ∃ r, prngReg c r) : sProp 𝕄) := hout1 V c

set_option backward.isDefEq.respectTransparency.types false in
/-- Region 0 over the thread state: entered with every unscoped buffer at `W0`, left with them at `W1`. Its
    arrays are split out of the unscoped buffers and put back at the exit contents; the generator register and the scoped
    buffers go into the region invariant and come back out of it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V0 m ρ) c).Φ 0 from rfl]
    iintro ⟨Hp, -, Hr⟩
    iapply (hin0' (V0 m ρ) c)
    isplitl [Hr]; · iexact Hr
    iexact Hp
  hout c := by
    rw [Pipeline.ownSems0_none, show (pdats m ρ 0 c).Φ (Fin.last _) = (dat0 (V0 m ρ) c).Φ (Fin.last cfg0.N) from rfl]
    iintro HΦ
    ihave HΦ' := (hout0' (V0 m ρ) c) $$ HΦ
    icases HΦ' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W1`, left with them at `W2`. Its
    arrays are split out of the unscoped buffers and put back at the exit contents; the generator register and the scoped
    buffers go into the region invariant and come back out of it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V1 m ρ) c).Φ 0 from rfl]
    iintro ⟨Hp, -, Hr⟩
    iapply (hin1' (V1 m ρ) c)
    isplitl [Hr]; · iexact Hr
    iexact Hp
  hout c := by
    rw [Pipeline.ownSems0_none, show (pdats m ρ 1 c).Φ (Fin.last _) = (dat1 (V1 m ρ) c).Φ (Fin.last cfg1.N) from rfl]
    iintro HΦ
    ihave HΦ' := (hout1' (V1 m ρ) c) $$ HΦ
    icases HΦ' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: every weakly fair execution of the program from memory `m` terminates, nothing faulting, and in every final
    state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_main m ρ)

/-- The run with the result array named: it ends at what region 1's write-backs leave, the arguments as launched. -/
theorem run_value : θ_run defs (onTc (τ := τ) (main (F := F))) ⟨m, fun _ => 0, ρ⟩ (fun r => ∀ c : Dev nD,
      r.2.mem ((c.tc : Thread nD τ).loc main_v1) = (dat1 (V1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_main m ρ)

end Cert.Kernel.Hand

end
-- ==== Proof.KI.R0Base.lean ====
/-
  Region 0 (the degree-and-scale kernel, grid 8 × 8) — what its three control cases share.
  The kernel keeps a running row sum in a scratch column: at the first step of a row block (k = 0) it zeroes the
  column, at every step it adds the row sums of the current 2048 × 2048 block of the adjacency matrix, and at the
  last step (k = 7) it turns the column into d = rsqrt(max(deg, eps)) and writes d and feat · d out.
  Here: a window's block read off the array the region finds, the two branch conditions in closed form over the
  64 grid points, where the two output windows are idle, and the region invariant's scratch column named.
-/
import proofs.«100336_j31576599560639_2_alg».proof.Proof.Gen.KernelIdeal.Launch
import proofs.«100336_j31576599560639_2_alg».proof.Proof.Gen.KernelIdeal.Skeleton
import proofs.«100336_j31576599560639_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency block sits in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The feature block sits in its staging buffer at every point: it is fetched when the row block changes and
    stays while k runs. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions -/

/-- k = 0: the scratch column is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- k = 7: the epilogue writes the two outputs. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last step the two outputs are idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last step they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

abbrev VO0_2 : View sig .tc .vmem S2048x256 .f32 := (Memref.whole cc0_stg2_0 : Memref sig .tc .vmem S2048x256 .f32).view
abbrev VO0_3 : View sig .tc .vmem S2048x1 .f32 := (Memref.whole cc0_stg3_0 : Memref sig .tc .vmem S2048x1 .f32).view
abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)
/-- The scratch column. -/
abbrev scM0_0 : Memref sig .tc .vmem S2048x1 .f32 := Memref.whole cc0_scratch0
abbrev VS0_0 : View sig .tc .vmem S2048x1 .f32 := scM0_0.view

/-- The scoped buffers region 0 never touches (the other region's staging buffers and scratch), each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's class invariant with the scratch column named. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

end Cert.KernelIdeal.Hand

end
-- ==== Proof.KI.R0RunA.lean ====
/-
  Region 0, the first step of a row block (k = 0): the body zeroes the scratch column and adds the row sums of the
  adjacency block to it; the two output buffers are not touched. The scratch column's final contents are recorded
  as the list of stores the symbolic run of the body finds.
-/
import proofs.«100336_j31576599560639_2_alg».proof.Proof.KI.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores into the scratch column at k = 0, with the body's triple: inputs and untouched outputs handed back,
    the scratch column (entered at anything) left with those stores written. -/
noncomputable def kernelRun0_A (c : Dev nD) (i : grid0.Coords) (arg2 : Memref sig .tc .vmem S2048x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x2048 .f32) (x1 : Vec F S2048x256 .f32) :
    { LS0 : List (View.Piece (Elt F) S2048x1 .f32) //
      ∀ (xi2 : Vec F S2048x256 .f32) (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__degree_and_scale_kernel i arg2 harg2 arg3 harg3 arg4 harg4 arg5 harg5 arg6 harg6) K } := by
  refine ⟨?_, fun xi2 xi3 E K => ?run⟩
  case run =>
    simp only [cc0__degree_and_scale_kernel_eq_skeleton]; unfold cc0__degree_and_scale_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R0RunB.lean ====
/-
  Region 0, a middle step (0 < k < 7): the body adds the row sums of the adjacency block to the scratch column the
  step before left; the two output buffers are not touched.
-/
import proofs.«100336_j31576599560639_2_alg».proof.Proof.KI.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores into the scratch column at a middle step, with the body's triple: the scratch column entered at
    what the step before left (`xs0`). -/
noncomputable def kernelRun0_B (c : Dev nD) (i : grid0.Coords) (arg2 : Memref sig .tc .vmem S2048x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x2048 .f32) (x1 : Vec F S2048x256 .f32) (xs0 : Vec F S2048x1 .f32) :
    { LS0 : List (View.Piece (Elt F) S2048x1 .f32) //
      ∀ (xi2 : Vec F S2048x256 .f32) (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__degree_and_scale_kernel i arg2 harg2 arg3 harg3 arg4 harg4 arg5 harg5 arg6 harg6) K } := by
  refine ⟨?_, fun xi2 xi3 E K => ?run⟩
  case run =>
    simp only [cc0__degree_and_scale_kernel_eq_skeleton]; unfold cc0__degree_and_scale_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R0RunC.lean ====
/-
  Region 0, the last step of a row block (k = 7): the body adds the row sums of the adjacency block to the scratch
  column, then stores d = rsqrt(max(column, eps)) into the d output buffer and feat · d into the x1 output buffer.
-/
import proofs.«100336_j31576599560639_2_alg».proof.Proof.KI.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores into the two output buffers and into the scratch column at the last step, with the body's triple. -/
noncomputable def kernelRun0_C (c : Dev nD) (i : grid0.Coords) (arg2 : Memref sig .tc .vmem S2048x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x2048 .f32) (x1 : Vec F S2048x256 .f32) (xs0 : Vec F S2048x1 .f32) :
    Σ' (L2 : List (View.Piece (Elt F) S2048x256 .f32)) (L3 : List (View.Piece (Elt F) S2048x1 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__degree_and_scale_kernel i arg2 harg2 arg3 harg3 arg4 harg4 arg5 harg5 arg6 harg6) K } := by
  refine ⟨?_, ?_, ?_, fun E K => ?run⟩
  case run =>
    simp only [cc0__degree_and_scale_kernel_eq_skeleton]; unfold cc0__degree_and_scale_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Hand

end
-- ==== Proof.KI.R0Frame.lean ====
/-
  Region 0 as a pipeline with a carried scratch column: what the scratch column and the two output buffers hold after
  each grid point (a recursion over the points: zeroed-then-added at k = 0, added to otherwise, read into the outputs
  at k = 7), the region invariant that carries the column from one point to the next, the proof data, and the body's
  obligation at every point. Everything is stated at the array contents `V` the region is entered with.
-/
import proofs.«100336_j31576599560639_2_alg».proof.Proof.KI.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem ncond0_0 (t : Fin cfg0.N) (h : ¬t.val % 8 = 0) : ¬cond0_0 (grid0.coords t) := fun h' => h ((hcond0_0 t).mp h')
theorem ncond0_1 (t : Fin cfg0.N) (h : ¬t.val % 8 = 7) : ¬cond0_1 (grid0.coords t) := fun h' => h ((hcond0_1 t).mp h')

/-- What an output buffer "holds" at a point that leaves it idle: nothing anyone reads. -/
def idle0_2 : Vec F S2048x256 .f32 := VO0_2.read (Elt F) (VO0_2.writes (Elt F) VO0_2.junk [])
def idle0_3 : Vec F S2048x1 .f32 := VO0_3.read (Elt F) (VO0_3.writes (Elt F) VO0_3.junk [])

/-! ## The three cases at a grid point -/

/-- k = 0: the stores into the scratch column. -/
def runA0 (c : Dev nD) (t : Fin cfg0.N) (h0 : t.val % 8 = 0) (h7 : ¬t.val % 8 = 7) :=
  kernelRun0_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (ncond0_1 t h7) (iblk0 V c 0 t) (iblk0 V c 1 t)
/-- 0 < k < 7. -/
def runB0 (c : Dev nD) (t : Fin cfg0.N) (h0 : ¬t.val % 8 = 0) (h7 : ¬t.val % 8 = 7) (xs0 : Vec F S2048x1 .f32) :=
  kernelRun0_B (F := F) c (grid0.coords t) (ms0_0 t) (hs0_0 t) (ms0_1 t) (hs0_1 t) (ms0_2 t) (hs0_2 t) (ms0_3 t) (hs0_3 t) scM0_0 (Memref.isWhole_whole _) (ncond0_0 t h0) (ncond0_1 t h7) (iblk0 V c 0 t) (iblk0 V c 1 t) xs0
/-- k = 7. -/
def runC0 (c : Dev nD) (t : Fin cfg0.N) (h0 : ¬t.val % 8 = 0) (h7 : t.val % 8 = 7) (xs0 : Vec F S2048x1 .f32) :=
  kernelRun0_C (F := F) c (grid0.coords t) (ms0_0 t) (hs0_0 t) (ms0_1 t) (hs0_1 t) (ms0_2 t) (hs0_2 t) (ms0_3 t) (hs0_3 t) scM0_0 (Memref.isWhole_whole _) (ncond0_0 t h0) ((hcond0_1 t).mpr h7) (iblk0 V c 0 t) (iblk0 V c 1 t) xs0

theorem scoverA0 (c : Dev nD) (t : Fin cfg0.N) (h0 : t.val % 8 = 0) (h7 : ¬t.val % 8 = 7) (y : S2048x1.Idx) :
    ∃ pc ∈ (runA0 V c t h0 h7).1, y ∈ pc.1.set :=
  View.cover_of_tiledL (runA0 V c t h0 h7).1 S2048x1.size (by unfold runA0; sl_kernel_rfl) y
theorem scoverB0 (c : Dev nD) (t : Fin cfg0.N) (h0 : ¬t.val % 8 = 0) (h7 : ¬t.val % 8 = 7) (xs0 : Vec F S2048x1 .f32) (y : S2048x1.Idx) :
    ∃ pc ∈ (runB0 V c t h0 h7 xs0).1, y ∈ pc.1.set :=
  View.cover_of_tiledL (runB0 V c t h0 h7 xs0).1 S2048x1.size (by unfold runB0; sl_kernel_rfl) y
theorem scoverC0 (c : Dev nD) (t : Fin cfg0.N) (h0 : ¬t.val % 8 = 0) (h7 : t.val % 8 = 7) (xs0 : Vec F S2048x1 .f32) (y : S2048x1.Idx) :
    ∃ pc ∈ (runC0 V c t h0 h7 xs0).2.2.1, y ∈ pc.1.set :=
  View.cover_of_tiledL (runC0 V c t h0 h7 xs0).2.2.1 S2048x1.size (by unfold runC0; sl_kernel_rfl) y
theorem coverC0_2 (c : Dev nD) (t : Fin cfg0.N) (h0 : ¬t.val % 8 = 0) (h7 : t.val % 8 = 7) (xs0 : Vec F S2048x1 .f32) (y : S2048x256.Idx) :
    ∃ pc ∈ (runC0 V c t h0 h7 xs0).1, y ∈ pc.1.set :=
  View.cover_of_tiledL (runC0 V c t h0 h7 xs0).1 S2048x256.size (by unfold runC0; sl_kernel_rfl) y
theorem coverC0_3 (c : Dev nD) (t : Fin cfg0.N) (h0 : ¬t.val % 8 = 0) (h7 : t.val % 8 = 7) (xs0 : Vec F S2048x1 .f32) (y : S2048x1.Idx) :
    ∃ pc ∈ (runC0 V c t h0 h7 xs0).2.1, y ∈ pc.1.set :=
  View.cover_of_tiledL (runC0 V c t h0 h7 xs0).2.1 S2048x1.size (by unfold runC0; sl_kernel_rfl) y

/-- The scratch column after the body, case by case: its stores read back. -/
def sA0 (c : Dev nD) (t : Fin cfg0.N) (h0 : t.val % 8 = 0) (h7 : ¬t.val % 8 = 7) : Vec F S2048x1 .f32 :=
  VS0_0.read (Elt F) (VS0_0.writes (Elt F) VS0_0.junk (runA0 V c t h0 h7).1)
def sB0 (c : Dev nD) (t : Fin cfg0.N) (h0 : ¬t.val % 8 = 0) (h7 : ¬t.val % 8 = 7) (xs0 : Vec F S2048x1 .f32) : Vec F S2048x1 .f32 :=
  VS0_0.read (Elt F) (VS0_0.writes (Elt F) VS0_0.junk (runB0 V c t h0 h7 xs0).1)
def sC0 (c : Dev nD) (t : Fin cfg0.N) (h0 : ¬t.val % 8 = 0) (h7 : t.val % 8 = 7) (xs0 : Vec F S2048x1 .f32) : Vec F S2048x1 .f32 :=
  VS0_0.read (Elt F) (VS0_0.writes (Elt F) VS0_0.junk (runC0 V c t h0 h7 xs0).2.2.1)
/-- The two output buffers after the body at k = 7. -/
def oC0_2 (c : Dev nD) (t : Fin cfg0.N) (h0 : ¬t.val % 8 = 0) (h7 : t.val % 8 = 7) (xs0 : Vec F S2048x1 .f32) : Vec F S2048x256 .f32 :=
  VO0_2.read (Elt F) (VO0_2.writes (Elt F) VO0_2.junk (runC0 V c t h0 h7 xs0).1)
def oC0_3 (c : Dev nD) (t : Fin cfg0.N) (h0 : ¬t.val % 8 = 0) (h7 : t.val % 8 = 7) (xs0 : Vec F S2048x1 .f32) : Vec F S2048x1 .f32 :=
  VO0_3.read (Elt F) (VO0_3.writes (Elt F) VO0_3.junk (runC0 V c t h0 h7 xs0).2.1)

/-! ## Point by point -/

/-- After the body at position `n`: (x1 output buffer, d output buffer, scratch column). The scratch column of a step
    with k > 0 is computed from the one the step before left. -/
def outsAt0 (c : Dev nD) : (n : ℕ) → n < cfg0.N → Vec F S2048x256 .f32 × Vec F S2048x1 .f32 × Vec F S2048x1 .f32
  | 0, hn => (idle0_2, idle0_3, sA0 V c ⟨0, hn⟩ (Nat.zero_mod _) (by show ¬(0 % 8 = 7); omega))
  | n + 1, hn =>
    if h0 : (n + 1) % 8 = 0 then
      (idle0_2, idle0_3, sA0 V c ⟨n + 1, hn⟩ h0 (by show ¬((n + 1) % 8 = 7); omega))
    else if h7 : (n + 1) % 8 = 7 then
      (oC0_2 V c ⟨n + 1, hn⟩ h0 h7 (outsAt0 c n (Nat.lt_of_succ_lt hn)).2.2, oC0_3 V c ⟨n + 1, hn⟩ h0 h7 (outsAt0 c n (Nat.lt_of_succ_lt hn)).2.2,
        sC0 V c ⟨n + 1, hn⟩ h0 h7 (outsAt0 c n (Nat.lt_of_succ_lt hn)).2.2)
    else
      (idle0_2, idle0_3, sB0 V c ⟨n + 1, hn⟩ h0 h7 (outsAt0 c n (Nat.lt_of_succ_lt hn)).2.2)

theorem outsAt0_A (c : Dev nD) (t : Fin cfg0.N) (h0 : t.val % 8 = 0) (h7 : ¬t.val % 8 = 7) :
    outsAt0 V c t.val t.isLt = (idle0_2, idle0_3, sA0 V c t h0 h7) := by
  obtain ⟨n, hn⟩ := t
  cases n with
  | zero => rfl
  | succ n => exact (dif_pos h0).trans rfl

theorem outsAt0_B (c : Dev nD) (t : Fin cfg0.N) (h0 : ¬t.val % 8 = 0) (h7 : ¬t.val % 8 = 7) :
    outsAt0 V c t.val t.isLt = (idle0_2, idle0_3, sB0 V c t h0 h7 (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h7).trans rfl)

theorem outsAt0_C (c : Dev nD) (t : Fin cfg0.N) (h0 : ¬t.val % 8 = 0) (h7 : t.val % 8 = 7) :
    outsAt0 V c t.val t.isLt = (oC0_2 V c t h0 h7 (outsAt0 V c (t.val - 1) (Nat.lt_of_le_of_lt (Nat.sub_le _ _) t.isLt)).2.2,
      oC0_3 V c t h0 h7 (outsAt0 V c (t.val - 1) (Nat.lt_of_le_of_lt (Nat.sub_le _ _) t.isLt)).2.2,
      sC0 V c t h0 h7 (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h7).trans rfl)

/-! ## The region invariant -/

/-- Before position `n`: at the start the class invariant (every scoped buffer at anything); afterwards the scratch
    column at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2) ∗ Rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ Rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the closed forms say which case the point is in; the invariant hands the body the scratch
    column at what the point before left (at anything at the very first point) and takes it back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h7 : t.val % 8 = 7
  · have h0 : ¬t.val % 8 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h7)], after0_2]
    rw [show (dat0 V c).leavesExact 3 t = owns (c : Thread nD τ) (ms0_3 t) fullShare ((dat0 V c).after 3 t) from by
      unfold Dat.leavesExact; rw [liveAt0_3 t ((hcond0_1 t).mpr h7)], after0_3]
    rw [outsAt0_C V c t h0 h7]
    unfold oC0_2 oC0_3 sC0; (try dsimp only)
    rw [PhiS0_castSucc V c t, PhiS0_pos V c _ _ hz]
    iintro ⟨⟨⟨HS0, HR⟩, Hg⟩, Ho, ⟨%d0, H0⟩, ⟨%d1, H1⟩, ⟨%d2, H2⟩, ⟨%d3, H3⟩⟩
    iapply ((runC0 V c t h0 h7 _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scoverC0 V c t h0 h7 _)
        iexact HR
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverC0_2 V c t h0 h7 _)
    unfold owns; iexists _; isplitr
    swap; · iexact H3
    ipureintro; exact View.read_writes_of_cover _ _ _ _ _ (coverC0_3 V c t h0 h7 _)
  · rw [Dat.leavesExact_idle (dat0 V c) 2 t (idleAt0_2 t (ncond0_1 t h7)) (noFlush0_2 t (ncond0_1 t h7))]
    rw [Dat.leavesExact_idle (dat0 V c) 3 t (idleAt0_3 t (ncond0_1 t h7)) (noFlush0_3 t (ncond0_1 t h7))]
    by_cases h0 : t.val % 8 = 0
    · rw [outsAt0_A V c t h0 h7]
      unfold sA0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩⟩
        iapply ((runA0 V c t h0 h7).2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scoverA0 V c t h0 h7)
            iexact HR
          iexact Hg
        isplitl [Ho]; · iexact Ho
        isplitl [H0]; · iexact H0
        isplitl [H1]; · iexact H1
        isplitl [H2]; · iexists _; iexact H2
        iexists _; iexact H3
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((runA0 V c t h0 h7).2 _ _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scoverA0 V c t h0 h7)
            iexact HR
          iexact Hg
        isplitl [Ho]; · iexact Ho
        isplitl [H0]; · iexact H0
        isplitl [H1]; · iexact H1
        isplitl [H2]; · iexists _; iexact H2
        iexists _; iexact H3
    · have hz : t.val ≠ 0 := by omega
      rw [outsAt0_B V c t h0 h7]
      unfold sB0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((runB0 V c t h0 h7 _).2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverB0 V c t h0 h7 _)
          iexact HR
        iexact Hg
      isplitl [Ho]; · iexact Ho
      isplitl [H0]; · iexact H0
      isplitl [H1]; · iexact H1
      isplitl [H2]; · iexists _; iexact H2
      iexists _; iexact H3

theorem body_obligation0 (c : Dev nD) : BodyObligation (dat0 (F := F) V c) (defs₀ (F := F)) Variants.none () Set.univ := fun t => by
  rw [bigSep_W0, bigSep_W0]
  exact sound_body0 V c t

/-- The class invariant is the region invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the region invariant gives the class invariant back: the scratch column's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, HR⟩, Hg⟩
  isplitl [HS0 HR]
  · isplitl [HS0]
    · iexists _; iexact HS0
    iexact HR
  iexact Hg

end Cert.KernelIdeal.Hand

end
-- ==== Proof.KI.R1Base.lean ====
/-
  Region 1 (the propagation kernel, grid 16 × 8) — what its three control cases share.
  The kernel keeps a 1024 × 256 accumulator in scratch: at the first step of a row block (k = 0) it zeroes it, at every
  step it adds (adjacency block) · (rows k·2048 … of x1), and at the last step (k = 7) it scales the rows by d, multiplies
  by the weight matrix and writes the result block out.
-/
import proofs.«100336_j31576599560639_2_alg».proof.Proof.Gen.KernelIdeal.Launch
import proofs.«100336_j31576599560639_2_alg».proof.Proof.Gen.KernelIdeal.Skeleton
import proofs.«100336_j31576599560639_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions -/

/-- k = 0: the accumulator is zeroed. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- k = 7: the epilogue writes the result block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last step the output is idle and not written back; at the last step it is live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

abbrev VO1_4 : View sig .tc .vmem S1024x256 .f32 := (Memref.whole cc1_stg4_0 : Memref sig .tc .vmem S1024x256 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The accumulator. -/
abbrev scM1_0 : Memref sig .tc .vmem S1024x256 .f32 := Memref.whole cc1_scratch0
abbrev VS1_0 : View sig .tc .vmem S1024x256 .f32 := scM1_0.view

/-- The scoped buffers region 1 never touches (region 0's staging buffers and scratch column), each at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The region's class invariant with the accumulator split off (it is the last scoped buffer of the list), -/
theorem PhiA1_split (c : Dev nD) :
    (Pipeline.ΦA spec1 c : sProp 𝕄)
      ⊢ iprop(iprop((∃ d, owns (c : Thread nD τ) scM1_0 fullShare d) ∗ Rest1 c) ∗ (∃ r, prngReg c r)) := by
  unfold Pipeline.ΦA Rest1; rw [scopedRest1_eq]; simp only [scM1_0, owns_whole]
  iintro ⟨⟨R1, R2, R3, R4, R5, R6, R7, R8, R9, HS⟩, Hg⟩
  isplitr [Hg]
  · isplitl [HS]; · iexact HS
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  iexact Hg

/-- and put back. -/
theorem PhiA1_join (c : Dev nD) :
    (iprop(iprop((∃ d, owns (c : Thread nD τ) scM1_0 fullShare d) ∗ Rest1 c) ∗ (∃ r, prngReg c r)) : sProp 𝕄)
      ⊢ Pipeline.ΦA spec1 c := by
  unfold Pipeline.ΦA Rest1; rw [scopedRest1_eq]; simp only [scM1_0, owns_whole]
  iintro ⟨⟨HS, R1, R2, R3, R4, R5, R6, R7, R8, R9⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact HS
  iexact Hg

end Cert.KernelIdeal.Hand

end
-- ==== Proof.KI.R1RunA.lean ====
/-
  Region 1, the first step of a row block (k = 0): the body zeroes the accumulator and adds the product of the
  adjacency block with its 2048 rows of x1; the output buffer is not touched.
-/
import proofs.«100336_j31576599560639_2_alg».proof.Proof.KI.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S1024x2048 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S256x256 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i)
    (x0 : Vec F S1024x2048 .f32) (x1 : Vec F S16384x256 .f32) (x2 : Vec F S1024x1 .f32) (x3 : Vec F S256x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__prop_kernel i arg2 harg2 arg3 harg3 arg4 harg4 arg5 harg5 arg6 harg6 arg7 harg7) K } := by
  refine ⟨?_, fun xi4 E K => ?run⟩
  case run =>
    simp only [cc1__prop_kernel_eq_skeleton]; unfold cc1__prop_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R1RunB.lean ====
/-
  Region 1, a middle step (0 < k < 7): the body adds the product of the adjacency block with its 2048 rows of x1 to
  the accumulator the step before left; the output buffer is not touched.
-/
import proofs.«100336_j31576599560639_2_alg».proof.Proof.KI.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S1024x2048 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S256x256 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i)
    (x0 : Vec F S1024x2048 .f32) (x1 : Vec F S16384x256 .f32) (x2 : Vec F S1024x1 .f32) (x3 : Vec F S256x256 .f32) (xs0 : Vec F S1024x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__prop_kernel i arg2 harg2 arg3 harg3 arg4 harg4 arg5 harg5 arg6 harg6 arg7 harg7) K } := by
  refine ⟨?_, fun xi4 E K => ?run⟩
  case run =>
    simp only [cc1__prop_kernel_eq_skeleton]; unfold cc1__prop_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R1RunC.lean ====
/-
  Region 1, the last step of a row block (k = 7): the body adds the last product to the accumulator, scales its rows
  by d, multiplies by the weight matrix and stores the result block into the output buffer.
-/
import proofs.«100336_j31576599560639_2_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S1024x2048 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S256x256 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i)
    (x0 : Vec F S1024x2048 .f32) (x1 : Vec F S16384x256 .f32) (x2 : Vec F S1024x1 .f32) (x3 : Vec F S256x256 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__prop_kernel i arg2 harg2 arg3 harg3 arg4 harg4 arg5 harg5 arg6 harg6 arg7 harg7) K } := by
  refine ⟨?_, ?_, fun E K => ?run⟩
  case run =>
    simp only [cc1__prop_kernel_eq_skeleton]; unfold cc1__prop_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.R1Frame.lean ====
/-
  Region 1 as a pipeline with a carried accumulator: what the accumulator and the output buffer hold after each grid
  point (zeroed-then-added at k = 0, added to otherwise, read into the output at k = 7), the region invariant that
  carries the accumulator from one point to the next, the proof data, and the body's obligation at every point.
  Everything is stated at the array contents `V` the region is entered with.
-/
import proofs.«100336_j31576599560639_2_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem ncond1_0 (t : Fin cfg1.N) (h : ¬t.val % 8 = 0) : ¬cond1_0 (grid1.coords t) := fun h' => h ((hcond1_0 t).mp h')
theorem ncond1_1 (t : Fin cfg1.N) (h : ¬t.val % 8 = 7) : ¬cond1_1 (grid1.coords t) := fun h' => h ((hcond1_1 t).mp h')

/-- What the output buffer "holds" at a point that leaves it idle: nothing anyone reads. -/
def idle1_4 : Vec F S1024x256 .f32 := VO1_4.read (Elt F) (VO1_4.writes (Elt F) VO1_4.junk [])

/-! ## The three cases at a grid point -/

def runA1 (c : Dev nD) (t : Fin cfg1.N) (h0 : t.val % 8 = 0) (h7 : ¬t.val % 8 = 7) :=
  kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (ncond1_1 t h7) (iblk1 V c 0 t) (iblk1 V c 1 t) (iblk1 V c 2 t) (iblk1 V c 3 t)
def runB1 (c : Dev nD) (t : Fin cfg1.N) (h0 : ¬t.val % 8 = 0) (h7 : ¬t.val % 8 = 7) (xs0 : Vec F S1024x256 .f32) :=
  kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (ncond1_0 t h0) (ncond1_1 t h7) (iblk1 V c 0 t) (iblk1 V c 1 t) (iblk1 V c 2 t) (iblk1 V c 3 t) xs0
def runC1 (c : Dev nD) (t : Fin cfg1.N) (h0 : ¬t.val % 8 = 0) (h7 : t.val % 8 = 7) (xs0 : Vec F S1024x256 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (ncond1_0 t h0) ((hcond1_1 t).mpr h7) (iblk1 V c 0 t) (iblk1 V c 1 t) (iblk1 V c 2 t) (iblk1 V c 3 t) xs0

theorem scoverA1 (c : Dev nD) (t : Fin cfg1.N) (h0 : t.val % 8 = 0) (h7 : ¬t.val % 8 = 7) (y : S1024x256.Idx) :
    ∃ pc ∈ (runA1 V c t h0 h7).1, y ∈ pc.1.set :=
  View.cover_of_tiledL (runA1 V c t h0 h7).1 S1024x256.size (by unfold runA1; sl_kernel_rfl) y
theorem scoverB1 (c : Dev nD) (t : Fin cfg1.N) (h0 : ¬t.val % 8 = 0) (h7 : ¬t.val % 8 = 7) (xs0 : Vec F S1024x256 .f32) (y : S1024x256.Idx) :
    ∃ pc ∈ (runB1 V c t h0 h7 xs0).1, y ∈ pc.1.set :=
  View.cover_of_tiledL (runB1 V c t h0 h7 xs0).1 S1024x256.size (by unfold runB1; sl_kernel_rfl) y
theorem scoverC1 (c : Dev nD) (t : Fin cfg1.N) (h0 : ¬t.val % 8 = 0) (h7 : t.val % 8 = 7) (xs0 : Vec F S1024x256 .f32) (y : S1024x256.Idx) :
    ∃ pc ∈ (runC1 V c t h0 h7 xs0).2.1, y ∈ pc.1.set :=
  View.cover_of_tiledL (runC1 V c t h0 h7 xs0).2.1 S1024x256.size (by unfold runC1; sl_kernel_rfl) y
theorem coverC1_4 (c : Dev nD) (t : Fin cfg1.N) (h0 : ¬t.val % 8 = 0) (h7 : t.val % 8 = 7) (xs0 : Vec F S1024x256 .f32) (y : S1024x256.Idx) :
    ∃ pc ∈ (runC1 V c t h0 h7 xs0).1, y ∈ pc.1.set :=
  View.cover_of_tiledL (runC1 V c t h0 h7 xs0).1 S1024x256.size (by unfold runC1; sl_kernel_rfl) y

/-- The accumulator after the body, case by case: its stores read back. -/
def sA1 (c : Dev nD) (t : Fin cfg1.N) (h0 : t.val % 8 = 0) (h7 : ¬t.val % 8 = 7) : Vec F S1024x256 .f32 :=
  VS1_0.read (Elt F) (VS1_0.writes (Elt F) VS1_0.junk (runA1 V c t h0 h7).1)
def sB1 (c : Dev nD) (t : Fin cfg1.N) (h0 : ¬t.val % 8 = 0) (h7 : ¬t.val % 8 = 7) (xs0 : Vec F S1024x256 .f32) : Vec F S1024x256 .f32 :=
  VS1_0.read (Elt F) (VS1_0.writes (Elt F) VS1_0.junk (runB1 V c t h0 h7 xs0).1)
def sC1 (c : Dev nD) (t : Fin cfg1.N) (h0 : ¬t.val % 8 = 0) (h7 : t.val % 8 = 7) (xs0 : Vec F S1024x256 .f32) : Vec F S1024x256 .f32 :=
  VS1_0.read (Elt F) (VS1_0.writes (Elt F) VS1_0.junk (runC1 V c t h0 h7 xs0).2.1)
/-- The output buffer after the body at k = 7. -/
def oC1_4 (c : Dev nD) (t : Fin cfg1.N) (h0 : ¬t.val % 8 = 0) (h7 : t.val % 8 = 7) (xs0 : Vec F S1024x256 .f32) : Vec F S1024x256 .f32 :=
  VO1_4.read (Elt F) (VO1_4.writes (Elt F) VO1_4.junk (runC1 V c t h0 h7 xs0).1)

/-! ## Point by point -/

/-- After the body at position `n`: (output buffer, accumulator). -/
def outsAt1 (c : Dev nD) : (n : ℕ) → n < cfg1.N → Vec F S1024x256 .f32 × Vec F S1024x256 .f32
  | 0, hn => (idle1_4, sA1 V c ⟨0, hn⟩ (Nat.zero_mod _) (by show ¬(0 % 8 = 7); omega))
  | n + 1, hn =>
    if h0 : (n + 1) % 8 = 0 then
      (idle1_4, sA1 V c ⟨n + 1, hn⟩ h0 (by show ¬((n + 1) % 8 = 7); omega))
    else if h7 : (n + 1) % 8 = 7 then
      (oC1_4 V c ⟨n + 1, hn⟩ h0 h7 (outsAt1 c n (Nat.lt_of_succ_lt hn)).2, sC1 V c ⟨n + 1, hn⟩ h0 h7 (outsAt1 c n (Nat.lt_of_succ_lt hn)).2)
    else
      (idle1_4, sB1 V c ⟨n + 1, hn⟩ h0 h7 (outsAt1 c n (Nat.lt_of_succ_lt hn)).2)

theorem outsAt1_A (c : Dev nD) (t : Fin cfg1.N) (h0 : t.val % 8 = 0) (h7 : ¬t.val % 8 = 7) :
    outsAt1 V c t.val t.isLt = (idle1_4, sA1 V c t h0 h7) := by
  obtain ⟨n, hn⟩ := t
  cases n with
  | zero => rfl
  | succ n => exact (dif_pos h0).trans rfl

theorem outsAt1_B (c : Dev nD) (t : Fin cfg1.N) (h0 : ¬t.val % 8 = 0) (h7 : ¬t.val % 8 = 7) :
    outsAt1 V c t.val t.isLt = (idle1_4, sB1 V c t h0 h7 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

theorem outsAt1_C (c : Dev nD) (t : Fin cfg1.N) (h0 : ¬t.val % 8 = 0) (h7 : t.val % 8 = 7) :
    outsAt1 V c t.val t.isLt = (oC1_4 V c t h0 h7 (outsAt1 V c (t.val - 1) (Nat.lt_of_le_of_lt (Nat.sub_le _ _) t.isLt)).2,
      sC1 V c t h0 h7 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h7).trans rfl)

/-! ## The region invariant -/

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h7 : t.val % 8 = 7
  · have h0 : ¬t.val % 8 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h7)], after1_4]
    rw [outsAt1_C V c t h0 h7]
    unfold oC1_4 sC1; (try dsimp only)
    rw [PhiS1_castSucc V c t, PhiS1_pos V c _ _ hz]
    iintro ⟨⟨⟨HS0, HR⟩, Hg⟩, Ho, ⟨%d0, H0⟩, ⟨%d1, H1⟩, ⟨%d2, H2⟩, ⟨%d3, H3⟩, ⟨%d4, H4⟩⟩
    iapply ((runC1 V c t h0 h7 _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scoverC1 V c t h0 h7 _)
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverC1_4 V c t h0 h7 _)
  · rw [Dat.leavesExact_idle (dat1 V c) 4 t (idleAt1_4 t (ncond1_1 t h7)) (noFlush1_4 t (ncond1_1 t h7))]
    by_cases h0 : t.val % 8 = 0
    · rw [outsAt1_A V c t h0 h7]
      unfold sA1; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩, ⟨%d4, H4⟩⟩
        ihave HΦ' := (PhiA1_split c) $$ HΦ
        icases HΦ' with ⟨⟨HS0, HR⟩, Hg⟩
        iapply ((runA1 V c t h0 h7).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scoverA1 V c t h0 h7)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((runA1 V c t h0 h7).2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scoverA1 V c t h0 h7)
            iexact HR
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := by omega
      rw [outsAt1_B V c t h0 h7]
      unfold sB1; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((runB1 V c t h0 h7 _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverB1 V c t h0 h7 _)
          iexact HR
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- The class invariant is the region invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the region invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ ht]
  iintro ⟨⟨HS0, HR⟩, Hg⟩
  iapply (PhiA1_join c)
  isplitl [HS0 HR]
  · isplitl [HS0]
    · iexists _; iexact HS0
    iexact HR
  iexact Hg

end Cert.KernelIdeal.Hand

end
-- ==== Proof.KI.Run.lean ====
/-
  The whole program: the two regions one after the other. The contents of every buffer at each boundary (the launch
  memory; after region 0 its two output arrays at what its write-backs leave; after region 1 the result array likewise),
  each region as a segment of the run between those boundaries, and the run itself: every weakly fair execution ends,
  nothing faults, and every unscoped buffer ends at the last boundary's contents — so the three argument arrays end as
  launched and the result array ends at what region 1's write-backs leave.
-/
import proofs.«100336_j31576599560639_2_alg».proof.Proof.KI.R0Frame
import proofs.«100336_j31576599560639_2_alg».proof.Proof.KI.R1Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After region 1. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched; the intermediate and result arrays are what the write-backs leave -/

/-- The adjacency matrix is an input window of both regions. -/
theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W2_main_arg0 (c : Dev nD) : W2 m ρ c (Proc.devRef .tc main_arg0) = m ((c : Thread nD τ).loc main_arg0) :=
  ((W2_arr m ρ c 0).trans (((dat1 (V1 m ρ) c).arrAt_in 0 rfl _).trans (A_eq1 (V1 m ρ) c 0))).trans (W1_main_arg0 m ρ c)
/-- The features are an input window of region 0 and bypass region 1. -/
theorem W2_main_arg1 (c : Dev nD) : W2 m ρ c (Proc.devRef .tc main_arg1) = m ((c : Thread nD τ).loc main_arg1) :=
  (W2_of_ne m ρ c main_arg1 (by decide)).trans
    ((W1_arr m ρ c 1).trans (((dat0 (V0 m ρ) c).arrAt_in 1 rfl _).trans (A_eq0 (V0 m ρ) c 1)))
/-- The weights bypass region 0 and are an input window of region 1. -/
theorem W1_main_arg2 (c : Dev nD) : W1 m ρ c (Proc.devRef .tc main_arg2) = m ((c : Thread nD τ).loc main_arg2) :=
  W1_of_ne m ρ c main_arg2 (by decide)
theorem W2_main_arg2 (c : Dev nD) : W2 m ρ c (Proc.devRef .tc main_arg2) = m ((c : Thread nD τ).loc main_arg2) :=
  ((W2_arr m ρ c 3).trans (((dat1 (V1 m ρ) c).arrAt_in 3 rfl _).trans (A_eq1 (V1 m ρ) c 3))).trans (W1_main_arg2 m ρ c)
/-- Region 0's two outputs, as region 1 finds them. -/
theorem V1_main_v0_0 (c : Dev nD) : V1 m ρ c main_v0_0 = (dat0 (V0 m ρ) c).arrAt 2 cfg0.N := W1_arr m ρ c 2
theorem V1_main_v0_1 (c : Dev nD) : V1 m ρ c main_v0_1 = (dat0 (V0 m ρ) c).arrAt 3 cfg0.N := W1_arr m ρ c 3
/-- The result array at the end. -/
theorem W2_main_v1 (c : Dev nD) : W2 m ρ c (Proc.devRef .tc main_v1) = (dat1 (V1 m ρ) c).arrAt 4 cfg1.N := W2_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- Beside the buffers through every segment: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

/-- The class invariant spelt out: the scoped buffers no window stages, each at some contents, and the generator register. -/
theorem hin0' (V : (c : Dev nD) → (b : Ref sig .tc) → Buf (Elt F) ((c : Thread nD τ).loc b)) (c : Dev nD) :
    (iprop(Pipeline.scopedRest (Ix := Unit) (Name := ℕ) (U := UR sig nD τ) (Lvl := ℕ) (Val := Elt F) spec0 c ∗ ∃ r, prngReg c r) : sProp 𝕄) ⊢ (dat0 V c).Φ 0 := hin0 V c
theorem hout0' (V : (c : Dev nD) → (b : Ref sig .tc) → Buf (Elt F) ((c : Thread nD τ).loc b)) (c : Dev nD) :
    (dat0 V c).Φ (Fin.last cfg0.N) ⊢ (iprop(Pipeline.scopedRest (Ix := Unit) (Name := ℕ) (U := UR sig nD τ) (Lvl := ℕ) (Val := Elt F) spec0 c ∗ ∃ r, prngReg c r) : sProp 𝕄) := hout0 V c
theorem hin1' (V : (c : Dev nD) → (b : Ref sig .tc) → Buf (Elt F) ((c : Thread nD τ).loc b)) (c : Dev nD) :
    (iprop(Pipeline.scopedRest (Ix := Unit) (Name := ℕ) (U := UR sig nD τ) (Lvl := ℕ) (Val := Elt F) spec1 c ∗ ∃ r, prngReg c r) : sProp 𝕄) ⊢ (dat1 V c).Φ 0 := hin1 V c
theorem hout1' (V : (c : Dev nD) → (b : Ref sig .tc) → Buf (Elt F) ((c : Thread nD τ).loc b)) (c : Dev nD) :
    (dat1 V c).Φ (Fin.last cfg1.N) ⊢ (iprop(Pipeline.scopedRest (Ix := Unit) (Name := ℕ) (U := UR sig nD τ) (Lvl := ℕ) (Val := Elt F) spec1 c ∗ ∃ r, prngReg c r) : sProp 𝕄) := hout1 V c

set_option backward.isDefEq.respectTransparency.types false in
/-- Region 0 over the thread state: entered with every unscoped buffer at `W0`, left with them at `W1`. Its
    arrays are split out of the unscoped buffers and put back at the exit contents; the generator register and the scoped
    buffers go into the region invariant and come back out of it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V0 m ρ) c).Φ 0 from rfl]
    iintro ⟨Hp, -, Hr⟩
    iapply (hin0' (V0 m ρ) c)
    isplitl [Hr]; · iexact Hr
    iexact Hp
  hout c := by
    rw [Pipeline.ownSems0_none, show (pdats m ρ 0 c).Φ (Fin.last _) = (dat0 (V0 m ρ) c).Φ (Fin.last cfg0.N) from rfl]
    iintro HΦ
    ihave HΦ' := (hout0' (V0 m ρ) c) $$ HΦ
    icases HΦ' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W1`, left with them at `W2`. Its
    arrays are split out of the unscoped buffers and put back at the exit contents; the generator register and the scoped
    buffers go into the region invariant and come back out of it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V1 m ρ) c).Φ 0 from rfl]
    iintro ⟨Hp, -, Hr⟩
    iapply (hin1' (V1 m ρ) c)
    isplitl [Hr]; · iexact Hr
    iexact Hp
  hout c := by
    rw [Pipeline.ownSems0_none, show (pdats m ρ 1 c).Φ (Fin.last _) = (dat1 (V1 m ρ) c).Φ (Fin.last cfg1.N) from rfl]
    iintro HΦ
    ihave HΦ' := (hout1' (V1 m ρ) c) $$ HΦ
    icases HΦ' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: every weakly fair execution of the program from memory `m` terminates, nothing faulting, and in every final
    state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_main m ρ)

/-- The run with the result array named: it ends at what region 1's write-backs leave, the arguments as launched. -/
theorem run_value : θ_run defs (onTc (τ := τ) (main (F := F))) ⟨m, fun _ => 0, ρ⟩ (fun r => ∀ c : Dev nD,
      r.2.mem ((c.tc : Thread nD τ).loc main_v1) = (dat1 (V1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_main m ρ)

end Cert.KernelIdeal.Hand

end
-- ==== Proof.KI.R0Pieces.lean ====
/-
  Region 0: what the stores of each control case leave, as the body's arithmetic applied to what the point was given.
  Every store of this kernel covers its whole buffer, so a buffer ends at the payload of its last store, and a load
  that follows a store reads that payload back:
    k = 0      scratch = (zero column) + row sums of the adjacency block
    k > 0      scratch = (previous scratch) + row sums of the adjacency block
    k = 7      d buffer = rsqrt(max(scratch, eps)),  x1 buffer = feature block · d
-/
import proofs.«100336_j31576599560639_2_alg».proof.Proof.KI.R0Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by match a with | ⟨0, _⟩ => rfl | ⟨1, _⟩ => rfl

theorem sA0_eq (c : Dev nD) (t : Fin cfg0.N) (h0 : t.val % 8 = 0) (h7 : ¬t.val % 8 = 7) :
    sA0 V c t h0 h7 = k0_pay2 (k0_pay1 (F := F)) (iblk0 V c 0 t) := by
  unfold sA0
  rw [View.read_writes_eq_canon _ _ _ (scoverA0 V c t h0 h7)]
  unfold runA0 kernelRun0_A
  dsimp only
  sl_unfold_words
  rw [View.canon_cons_unit_zero hz2, View.readCov_unit_zero _ hz2]
  simp only [View.readAt_eq_ld, Memref.IsWhole.read_unread, View.ld_unit_zero (S := S2048x2048) hz2, View.ld_unit_zero (S := S2048x1) hz2, View.ld_unit_zero (S := S2048x256) hz2]

theorem sB0_eq (c : Dev nD) (t : Fin cfg0.N) (h0 : ¬t.val % 8 = 0) (h7 : ¬t.val % 8 = 7) (xs0 : Vec F S2048x1 .f32) :
    sB0 V c t h0 h7 xs0 = k0_pay2 xs0 (iblk0 V c 0 t) := by
  unfold sB0
  rw [View.read_writes_eq_canon _ _ _ (scoverB0 V c t h0 h7 xs0)]
  unfold runB0 kernelRun0_B
  dsimp only
  sl_unfold_words
  rw [View.canon_unit_zero hz2]
  simp only [View.readAt_eq_ld, Memref.IsWhole.read_unread, View.ld_unit_zero (S := S2048x2048) hz2, View.ld_unit_zero (S := S2048x1) hz2, View.ld_unit_zero (S := S2048x256) hz2]
  exact congrArg (fun s => k0_pay2 s (iblk0 V c 0 t)) ((Memref.isWhole_whole cc0_scratch0).read_unread xs0)

theorem sC0_eq (c : Dev nD) (t : Fin cfg0.N) (h0 : ¬t.val % 8 = 0) (h7 : t.val % 8 = 7) (xs0 : Vec F S2048x1 .f32) :
    sC0 V c t h0 h7 xs0 = k0_pay2 xs0 (iblk0 V c 0 t) := by
  unfold sC0
  rw [View.read_writes_eq_canon _ _ _ (scoverC0 V c t h0 h7 xs0)]
  unfold runC0 kernelRun0_C
  dsimp only
  sl_unfold_words
  rw [View.canon_unit_zero hz2]
  simp only [View.readAt_eq_ld, Memref.IsWhole.read_unread, View.ld_unit_zero (S := S2048x2048) hz2, View.ld_unit_zero (S := S2048x1) hz2, View.ld_unit_zero (S := S2048x256) hz2]
  exact congrArg (fun s => k0_pay2 s (iblk0 V c 0 t)) ((Memref.isWhole_whole cc0_scratch0).read_unread xs0)

theorem oC0_3_eq (c : Dev nD) (t : Fin cfg0.N) (h0 : ¬t.val % 8 = 0) (h7 : t.val % 8 = 7) (xs0 : Vec F S2048x1 .f32) :
    oC0_3 V c t h0 h7 xs0 = k0_pay3 (k0_pay2 xs0 (iblk0 V c 0 t)) := by
  unfold oC0_3
  rw [View.read_writes_eq_canon _ _ _ (coverC0_3 V c t h0 h7 xs0)]
  unfold runC0 kernelRun0_C
  dsimp only
  sl_unfold_words
  rw [View.canon_unit_zero hz2, View.readCov_unit_zero _ hz2]
  simp only [View.readAt_eq_ld, Memref.IsWhole.read_unread, View.ld_unit_zero (S := S2048x2048) hz2, View.ld_unit_zero (S := S2048x1) hz2, View.ld_unit_zero (S := S2048x256) hz2]
  exact congrArg (fun s => k0_pay3 (k0_pay2 s (iblk0 V c 0 t))) ((Memref.isWhole_whole cc0_scratch0).read_unread xs0)

theorem oC0_2_eq (c : Dev nD) (t : Fin cfg0.N) (h0 : ¬t.val % 8 = 0) (h7 : t.val % 8 = 7) (xs0 : Vec F S2048x1 .f32) :
    oC0_2 V c t h0 h7 xs0 = k0_pay4 (k0_pay2 xs0 (iblk0 V c 0 t)) (iblk0 V c 1 t) := by
  unfold oC0_2
  rw [View.read_writes_eq_canon _ _ _ (coverC0_2 V c t h0 h7 xs0)]
  unfold runC0 kernelRun0_C
  dsimp only
  sl_unfold_words
  rw [View.canon_unit_zero hz2, View.readCov_unit_zero _ hz2]
  simp only [View.readAt_eq_ld, Memref.IsWhole.read_unread, View.ld_unit_zero (S := S2048x2048) hz2, View.ld_unit_zero (S := S2048x1) hz2, View.ld_unit_zero (S := S2048x256) hz2]
  exact congrArg (fun s => k0_pay4 (k0_pay2 s (iblk0 V c 0 t)) (iblk0 V c 1 t)) ((Memref.isWhole_whole cc0_scratch0).read_unread xs0)

end Cert.KernelIdeal.Hand

end
-- ==== Proof.Spec.lean ====
/-
  The specification: the degree-normalised propagation layer as one function of the three argument arrays, entry by
  entry, over the extended reals.

    deg r     = Σ_k A(r, k)                     the row sums of the adjacency matrix
    d r       = rsqrt (max (deg r) eps)         eps the binary32 number nearest 1e-12
    x1(r, j)  = X(r, j) · d r
    x2(r, j)  = Σ_k A(r, k) · x1(k, j)
    x3(r, j)  = x2(r, j) · d r
    out(r, j) = Σ_k x3(r, k) · W(k, j)

  Also here: on the extended reals a power with exponent −1/2 of a number at least a positive real is the reciprocal
  square root of it (at +∞ both are 0), which is how the reference writes d.
-/
import Idealize.ShloMosaic.PureOps.Ideal
import Idealize.ShloMosaic.Lib.ValueIdx

noncomputable section

open scoped BigOperators

namespace Cert.Spec

open Idealize.ShloMosaic Idealize.ShloMosaic.ValueIdx

/-- The clamp: the binary32 word of 9.99999996e-13. -/
def eps : EReal := Ideal.ofBits .f32 0x2B8CBCCC#32

variable (A : (⟨2, ![16384, 16384]⟩ : Shape).Idx → EReal) (X : (⟨2, ![16384, 256]⟩ : Shape).Idx → EReal)
  (W : (⟨2, ![256, 256]⟩ : Shape).Idx → EReal)

def deg (r : Fin 16384) : EReal := ∑ k : Fin 16384, A (ix2 r k)
def dinv (r : Fin 16384) : EReal := Ideal.rsqrt (max (deg A r) eps)
def x1 (r : Fin 16384) (j : Fin 256) : EReal := X (ix2 r j) * dinv A r
def x2 (r : Fin 16384) (j : Fin 256) : EReal := ∑ k : Fin 16384, A (ix2 r k) * x1 A X k j
def x3 (r : Fin 16384) (j : Fin 256) : EReal := x2 A X r j * dinv A r
def out (r : Fin 16384) (j : Fin 256) : EReal := ∑ k : Fin 256, x3 A X r k * W (ix2 k j)

/-- The result array. -/
def G : (⟨2, ![16384, 256]⟩ : Shape).Idx → EReal := fun i => out A X W (i 0) (i 1)

/-- The clamp is a positive real. -/
theorem eps_pos : ∃ e : ℝ, 0 < e ∧ eps = (e : EReal) := by
  refine ⟨_, ?_, by simp [eps, Ideal.ofBits, Ideal.ieee]; rfl⟩
  norm_num

/-- At least a positive real: the power with exponent −1/2 is the reciprocal square root. -/
theorem pow_neg_half_eq_rsqrt (v : EReal) :
    Ideal.pow (max v eps) (Ideal.ofBits .f32 0xBF000000#32) = Ideal.rsqrt (max v eps) := by
  obtain ⟨e, he, hE⟩ := eps_pos
  have hexp : (Ideal.ofBits .f32 0xBF000000#32 : EReal) = ((-(1/2) : ℝ) : EReal) := by
    simp [Ideal.ofBits, Ideal.ieee, -EReal.coe_mul]; norm_num
  rw [hexp, hE]
  have hle : ((e : ℝ) : EReal) ≤ max v (e : EReal) := le_max_right _ _
  generalize max v (e : EReal) = u at hle
  induction u using EReal.rec with
  | bot => exact absurd hle (by simp)
  | top =>
    show (if (0 : EReal) < ((-(1/2) : ℝ) : EReal) then ⊤ else if ((-(1/2) : ℝ) : EReal) = 0 then 1 else 0) = (0 : EReal)
    rw [if_neg (by rw [not_lt]; exact_mod_cast (by norm_num : (-(1/2) : ℝ) ≤ 0)), if_neg (by exact_mod_cast (by norm_num : (-(1/2) : ℝ) ≠ 0))]
  | coe r =>
    have hr : 0 < r := lt_of_lt_of_le he (by exact_mod_cast hle)
    show ((Real.rpow r (-(1/2)) : ℝ) : EReal) = (if r < 0 then ⊥ else if r = 0 then ⊤ else (((Real.sqrt r)⁻¹ : ℝ) : EReal))
    rw [if_neg (not_lt.mpr hr.le), if_neg hr.ne']
    congr 1
    show r ^ (-(1/2) : ℝ) = (Real.sqrt r)⁻¹
    rw [Real.rpow_neg hr.le, Real.sqrt_eq_rpow]

end Cert.Spec

end
-- ==== Proof.KI.R0Pay.lean ====
/-
  Region 0's arithmetic read at an entry, over the extended reals:
    the zero column is 0 at every row;
    the accumulation step adds to row p of the scratch column the sum of row p of the adjacency block;
    the epilogue turns row p of the column into rsqrt(max(·, eps)), and multiplies row p of the feature block by it.
-/
import proofs.«100336_j31576599560639_2_alg».proof.Proof.Gen.KernelIdeal.Skeleton
import proofs.«100336_j31576599560639_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Pay0

open Idealize.ShloMosaic Idealize.ShloMosaic.ValueIdx Cert.KernelIdeal Cert.KernelIdeal.Gen

/-- Row p of the block with column k put back in. -/
theorem lift_eq (p : Fin 2048) (k : Fin 2048) :
    (Gen.reduces_S2048x2048_S2048).lift (ix1 p) k = (ix2 p k : S2048x2048.Idx) :=
  funext fun a => Fin.ext (by match a with | ⟨0, _⟩ => rfl | ⟨1, _⟩ => rfl)

theorem pay1_apply (y : S2048x1.Idx) : k0_pay1 (F := Ideal) y = 0 := by
  unfold k0_pay1
  simp only [shapeCast_self]
  exact Ideal.ofBits_zero_f32

theorem pay2_apply (s : Vec Ideal S2048x1 .f32) (blk : Vec Ideal S2048x2048 .f32) (p : Fin 2048) (q : Fin 1) :
    k0_pay2 (F := Ideal) s blk (ix2 p q) = s (ix2 p q) + ∑ k : Fin 2048, blk (ix2 p k) := by
  unfold k0_pay2
  simp only [shapeCast_self]
  rw [addf_apply]
  refine congrArg (s (ix2 p q) + ·) ?_
  refine (shapeCast_apply _ Gen.shapeCasts_S2048_S2048x1 (ix2 p q) (ix1 p) ?_).trans ?_
  · rw [Shape.rowMajor_val_one, Shape.rowMajor_val_two]
    show p.val = p.val * 1 + q.val
    have := q.isLt; omega
  · refine (Ideal.multiReduction_add_single blk 0x00000000#32 Gen.reduces_S2048x2048_S2048 (.inl rfl) rfl (ix1 p)).trans ?_
    exact Finset.sum_congr rfl fun k _ => congrArg blk (lift_eq p k)

theorem pay3_apply (s : Vec Ideal S2048x1 .f32) (y : S2048x1.Idx) :
    k0_pay3 (F := Ideal) s y = Ideal.rsqrt (max (s y) Cert.Spec.eps) := rfl

theorem pay4_apply (s : Vec Ideal S2048x1 .f32) (x : Vec Ideal S2048x256 .f32) (p : Fin 2048) (j : Fin 256) :
    k0_pay4 (F := Ideal) s x (ix2 p j) = x (ix2 p j) * Ideal.rsqrt (max (s (ix2 p 0)) Cert.Spec.eps) := by
  unfold k0_pay4
  rw [mulf_apply]
  refine congrArg (x (ix2 p j) * ·) ?_
  refine (broadcastTo_apply _ Gen.broadcasts_S2048x1_S2048x256 (ix2 p j) (ix2 p 0) (fun a => ?_)).trans (pay3_apply s _)
  match a with
  | ⟨0, _⟩ => show p.val = if (2048 : Nat) = 1 then 0 else p.val; rw [if_neg (by decide)]
  | ⟨1, _⟩ => show (0 : Nat) = if (1 : Nat) = 1 then 0 else j.val; rw [if_pos rfl]

end Cert.KernelIdeal.Pay0

end
-- ==== Proof.LibRsqrtBlocks.lean ====
/-
  Two general facts about the extended reals, with no program in sight.

  * `Cert.Lib.mul_rsqrt_eq_div_sqrt`: at the ideal instance, a value times the reciprocal square root of `v` is the value
    divided by the square root of `v`, for EVERY extended real value and every `0 < v ≤ +∞` (at `v = +∞` both sides are
    `0`). With `Cert.Lib.mul_self_nonneg` (a square is nonnegative, infinite values included) this joins a normaliser
    written `(x − mean) · rsqrt (var + ε)` to one written `(x − mean) / sqrt (var + ε)` without any finiteness: a variance
    is a sum of squares over a positive real, so `var + ε > 0` for `ε > 0`.
  * `Cert.Lib.sum_blocks` / `Cert.Lib.sum_div_mod`: a sum over `N = a · b` consecutive indices is the double sum over `a`
    blocks of `b` (`Cert.Lib.blockEquiv a b : Fin a × Fin b ≃ Fin N`, `(i, j) ↦ i · b + j`, inverse `k ↦ (k / b, k % b)`):
    a contraction accumulated block by block over a grid axis against one whole contraction, or heads laid side by
    side against the concatenated lanes. Stated for sums in the extended reals; only commutativity and associativity
    of `+` are used.

  Imports only the ideal instance's operations.
-/
import Idealize.ShloMosaic.PureOps.Ideal

noncomputable section

open scoped BigOperators

namespace Cert.Lib

open Idealize.ShloMosaic

/-- A square is nonnegative on the extended reals: `(±∞)·(±∞) = +∞`. -/
theorem mul_self_nonneg (y : EReal) : 0 ≤ y * y := by
  induction y using EReal.rec with
  | bot => simp [EReal.bot_mul_bot]
  | top => simp [EReal.top_mul_top]
  | coe r => rw [← EReal.coe_mul]; exact_mod_cast _root_.mul_self_nonneg r

/-- Times the reciprocal square root is over the square root, for every `x` and every `0 < v ≤ +∞`. -/
theorem mul_rsqrt_eq_div_sqrt (x v : EReal) (hv : 0 < v) : x * Ideal.rsqrt v = Ideal.div x (Ideal.sqrt v) := by
  induction v using EReal.rec with
  | bot => exact absurd hv (by simp)
  | top =>
    show x * (0 : EReal) = Ideal.div x ⊤
    rw [mul_zero, Ideal.div, if_neg EReal.top_ne_zero, EReal.inv_top, mul_zero]
  | coe r =>
    have hr : 0 < r := by exact_mod_cast hv
    have hs : Real.sqrt r ≠ 0 := (Real.sqrt_pos.mpr hr).ne'
    have hs' : ((Real.sqrt r : ℝ) : EReal) ≠ 0 := by exact_mod_cast hs
    show x * (if r < 0 then ⊥ else if r = 0 then ⊤ else (((Real.sqrt r)⁻¹ : ℝ) : EReal))
      = Ideal.div x (if r < 0 then ⊥ else ((Real.sqrt r : ℝ) : EReal))
    rw [if_neg (not_lt.mpr hr.le), if_neg hr.ne', if_neg (not_lt.mpr hr.le), Ideal.div, if_neg hs', EReal.coe_inv]

/-! ## A long sum as blocks -/

/-- `a` blocks of `b` consecutive indices. -/
def blockEquiv {N : ℕ} (a b : ℕ) (hb : 0 < b) (hN : N = a * b) : Fin a × Fin b ≃ Fin N where
  toFun p := ⟨p.1.val * b + p.2.val, by
    subst hN
    calc p.1.val * b + p.2.val < p.1.val * b + b := Nat.add_lt_add_left p.2.isLt _
      _ = (p.1.val + 1) * b := (Nat.succ_mul _ _).symm
      _ ≤ a * b := Nat.mul_le_mul_right _ p.1.isLt⟩
  invFun k := (⟨k.val / b, (Nat.div_lt_iff_lt_mul hb).mpr (hN ▸ k.isLt)⟩, ⟨k.val % b, Nat.mod_lt _ hb⟩)
  left_inv p := by
    refine Prod.ext (Fin.ext ?_) (Fin.ext ?_)
    · show (p.1.val * b + p.2.val) / b = p.1.val
      rw [Nat.add_comm, Nat.add_mul_div_right _ _ hb, Nat.div_eq_of_lt p.2.isLt, Nat.zero_add]
    · show (p.1.val * b + p.2.val) % b = p.2.val
      rw [Nat.add_comm, Nat.add_mul_mod_self_right, Nat.mod_eq_of_lt p.2.isLt]
  right_inv k := Fin.ext (Nat.div_add_mod' k.val b)

/-- A sum over `a · b` consecutive indices, block by block. -/
theorem sum_blocks {N : ℕ} (a b : ℕ) (hb : 0 < b) (hN : N = a * b) (f : Fin N → EReal) :
    ∑ k, f k = ∑ i : Fin a, ∑ j : Fin b, f (blockEquiv a b hb hN (i, j)) := by
  rw [← (blockEquiv a b hb hN).sum_comp, Fintype.sum_prod_type]

/-- The same with the summand written over (block, position): `k` is in block `k / b` at position `k % b`. -/
theorem sum_div_mod {N : ℕ} (a b : ℕ) (hb : 0 < b) (hN : N = a * b) (g : Fin a → Fin b → EReal) :
    ∑ k : Fin N, g ((blockEquiv a b hb hN).symm k).1 ((blockEquiv a b hb hN).symm k).2 = ∑ i : Fin a, ∑ j : Fin b, g i j := by
  rw [sum_blocks a b hb hN]
  refine Finset.sum_congr rfl fun i _ => Finset.sum_congr rfl fun j _ => ?_
  rw [Equiv.symm_apply_apply]

end Cert.Lib

end
-- ==== Proof.BlockSums.lean ====
/-
  Sums taken eight blocks at a time. The kernels walk a 16384-long contraction in eight steps of 2048 and keep the
  running total in a scratch buffer; `upTo g n` is the total after n steps of block terms g 0, g 1, …: nothing before
  the first step, one more term per step, the whole sum after the eighth. Together with the block form of a long sum
  (`Cert.Lib.sum_blocks`) the eighth total of the per-block sums is the one long sum.
  Only commutativity and associativity of + are used, so infinite values are allowed.
-/
import proofs.«100336_j31576599560639_2_alg».proof.Proof.LibRsqrtBlocks

noncomputable section

open scoped BigOperators

namespace Cert.Blocks

/-- The first `n` of the block terms, added up. -/
def upTo {N : ℕ} (g : Fin N → EReal) (n : ℕ) : EReal := ∑ b : Fin N, if b.val < n then g b else 0

theorem upTo_zero {N : ℕ} (g : Fin N → EReal) : upTo g 0 = 0 := by
  unfold upTo
  exact Finset.sum_eq_zero fun b _ => if_neg (Nat.not_lt_zero _)

theorem upTo_succ {N : ℕ} (g : Fin N → EReal) (n : ℕ) (hn : n < N) : upTo g (n + 1) = upTo g n + g ⟨n, hn⟩ := by
  unfold upTo
  have h : ∀ b : Fin N, (if b.val < n + 1 then g b else 0) = (if b.val < n then g b else 0) + (if b = ⟨n, hn⟩ then g b else 0) := by
    intro b
    by_cases h1 : b.val < n
    · have hne : b ≠ ⟨n, hn⟩ := fun e => by rw [e] at h1; exact lt_irrefl _ h1
      rw [if_pos (by omega), if_pos h1, if_neg hne, add_zero]
    · by_cases h2 : b.val = n
      · have he : b = ⟨n, hn⟩ := Fin.ext h2
        rw [if_pos (by omega), if_neg h1, if_pos he, zero_add]
      · have hne : b ≠ ⟨n, hn⟩ := fun e => h2 (by rw [e])
        rw [if_neg (by omega), if_neg h1, if_neg hne, add_zero]
  simp only [h, Finset.sum_add_distrib, Finset.sum_ite_eq', Finset.mem_univ, if_true]

theorem upTo_all {N : ℕ} (g : Fin N → EReal) : upTo g N = ∑ b, g b := by
  unfold upTo
  exact Finset.sum_congr rfl fun b _ => if_pos b.isLt

/-- Column `b · 2048 + j` of a 16384-long axis. -/
def col (b : Fin 8) (j : Fin 2048) : Fin 16384 := Cert.Lib.blockEquiv 8 2048 (by norm_num) (by norm_num) (b, j)

theorem col_val (b : Fin 8) (j : Fin 2048) : (col b j).val = b.val * 2048 + j.val := rfl

/-- A 16384-long sum is the eighth running total of its eight 2048-long block sums. -/
theorem sum_eq_upTo (f : Fin 16384 → EReal) : ∑ k, f k = upTo (fun b : Fin 8 => ∑ j : Fin 2048, f (col b j)) 8 := by
  rw [upTo_all]
  exact Cert.Lib.sum_blocks 8 2048 (by norm_num) (by norm_num) f

end Cert.Blocks

end
-- ==== Proof.KI.R0Value.lean ====
/-
  Region 0's two output arrays as functions of the arguments, over the extended reals.
  The grid point t = 8·i + k works on rows 2048·i … of the adjacency matrix and its columns 2048·k …; so after point t the
  scratch column holds, at row p, the first k + 1 of the eight 2048-long pieces of the row sum of row 2048·i + p. At
  k = 7 that is the whole row sum, and the point writes back d = rsqrt(max(deg, eps)) for its 2048 rows and the feature
  rows times d. The eight row blocks' write-backs tile the two output arrays.
-/
import proofs.«100336_j31576599560639_2_alg».proof.Proof.KI.R0Pieces
import proofs.«100336_j31576599560639_2_alg».proof.Proof.KI.R0Pay
import proofs.«100336_j31576599560639_2_alg».proof.Proof.BlockSums
import proofs.«100336_j31576599560639_2_alg».proof.Proof.Spec

noncomputable section

open scoped BigOperators

namespace Cert.KernelIdeal.Val0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem lt64 (t : Fin cfg0.N) : t.val < 64 := lt_of_lt_of_eq t.isLt (show cfg0.N = 64 from N_0)

/-- The printed index maps over the 64 grid points: row block t / 8 for every window, column block t % 8 for the adjacency. -/
theorem idx0 : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0 :=
  (by decide +kernel : ∀ t : Fin grid0.N, _)

/-- The adjacency block at point t is rows 2048·(t/8) … and columns 2048·(t%8) … of the matrix. -/
theorem blk0_apply (c : Dev nD) (t : Fin cfg0.N) (p k : Fin 2048) (r k' : Fin 16384)
    (hr : r.val = 2048 * (t.val / 8) + p.val) (hk : k'.val = 2048 * (t.val % 8) + k.val) :
    (iblk0 V c 0 t : Vec Ideal S2048x2048 .f32) (ix2 p k) = V c main_arg0 (ix2 r k') := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 2048 + 1 * p.val = r.val; rw [e0, hr]; omega
  | ⟨1, _⟩ => show win0_0.index t (1 : Fin 2) * 2048 + 1 * k.val = k'.val; rw [e1, hk]; omega

/-- The feature block at point t is rows 2048·(t/8) … of the features. -/
theorem blk1_apply (c : Dev nD) (t : Fin cfg0.N) (p : Fin 2048) (j : Fin 256) (r : Fin 16384)
    (hr : r.val = 2048 * (t.val / 8) + p.val) :
    (iblk0 V c 1 t : Vec Ideal S2048x256 .f32) (ix2 p j) = V c main_arg1 (ix2 r j) := by
  obtain ⟨-, -, e0, e1, -⟩ := idx0 t
  unfold iblk0
  rw [View.read_apply]
  show V c main_arg1 _ = V c main_arg1 _
  congr 1
  funext a
  apply Fin.ext
  match a with
  | ⟨0, _⟩ => show win0_1.index t (0 : Fin 2) * 2048 + 1 * p.val = r.val; rw [e0, hr]; omega
  | ⟨1, _⟩ => show win0_1.index t (1 : Fin 2) * 256 + 1 * j.val = j.val; rw [e1]; omega

/-- Piece b of the row sum of row r: its columns b·2048 … -/
def rowPiece (A : S16384x16384.Idx → EReal) (r : Fin 16384) (b : Fin 8) : EReal := ∑ j : Fin 2048, A (ix2 r (Cert.Blocks.col b j))

theorem deg_eq (A : S16384x16384.Idx → EReal) (r : Fin 16384) : Cert.Spec.deg A r = Cert.Blocks.upTo (rowPiece A r) 8 :=
  Cert.Blocks.sum_eq_upTo fun k => A (ix2 r k)

/-- One accumulation step at point t adds piece t % 8 of the rows' sums. -/
theorem step_eq (c : Dev nD) (t : Fin cfg0.N) (s : Vec Ideal S2048x1 .f32) (p : Fin 2048) (q : Fin 1) (r : Fin 16384)
    (hr : r.val = 2048 * (t.val / 8) + p.val) (b : Fin 8) (hb : b.val = t.val % 8) :
    k0_pay2 (F := Ideal) s (iblk0 V c 0 t) (ix2 p q) = s (ix2 p q) + rowPiece (V c main_arg0) r b := by
  refine (Cert.KernelIdeal.Pay0.pay2_apply s (iblk0 V c 0 t) p q).trans ?_
  refine congrArg (s (ix2 p q) + ·) (Finset.sum_congr rfl fun k _ => ?_)
  exact blk0_apply V c t p k r _ hr (by rw [Cert.Blocks.col_val, hb]; omega)

/-- A first step leaves piece 0. -/
theorem stepA (c : Dev nD) (t : Fin cfg0.N) (h0 : t.val % 8 = 0) (h7 : ¬t.val % 8 = 7) (p : Fin 2048) (q : Fin 1) (r : Fin 16384)
    (hr : r.val = 2048 * (t.val / 8) + p.val) :
    sA0 V c t h0 h7 (ix2 p q) = Cert.Blocks.upTo (rowPiece (V c main_arg0) r) 1 :=
  (congrFun (sA0_eq V c t h0 h7) (ix2 p q)).trans ((step_eq V c t _ p q r hr ⟨0, by norm_num⟩ h0.symm).trans (by
    rw [Cert.KernelIdeal.Pay0.pay1_apply, Cert.Blocks.upTo_succ _ 0 (by norm_num), Cert.Blocks.upTo_zero]))

/-- A later step adds its piece to what the step before left. -/
theorem stepB (c : Dev nD) (t : Fin cfg0.N) (h0 : ¬t.val % 8 = 0) (h7 : ¬t.val % 8 = 7) (xs : Vec Ideal S2048x1 .f32) (p : Fin 2048) (q : Fin 1) (r : Fin 16384)
    (hr : r.val = 2048 * (t.val / 8) + p.val) (b : Fin 8) (hb : b.val = t.val % 8) :
    sB0 V c t h0 h7 xs (ix2 p q) = xs (ix2 p q) + rowPiece (V c main_arg0) r b :=
  (congrFun (sB0_eq V c t h0 h7 xs) (ix2 p q)).trans (step_eq V c t xs p q r hr b hb)
theorem stepC (c : Dev nD) (t : Fin cfg0.N) (h0 : ¬t.val % 8 = 0) (h7 : t.val % 8 = 7) (xs : Vec Ideal S2048x1 .f32) (p : Fin 2048) (q : Fin 1) (r : Fin 16384)
    (hr : r.val = 2048 * (t.val / 8) + p.val) (b : Fin 8) (hb : b.val = t.val % 8) :
    sC0 V c t h0 h7 xs (ix2 p q) = xs (ix2 p q) + rowPiece (V c main_arg0) r b :=
  (congrFun (sC0_eq V c t h0 h7 xs) (ix2 p q)).trans (step_eq V c t xs p q r hr b hb)

/-- After point n the scratch column holds the first n % 8 + 1 pieces of its rows' sums. -/
theorem scratch_eq (c : Dev nD) : ∀ (k : ℕ) (t : Fin cfg0.N), t.val = k → ∀ (p : Fin 2048) (q : Fin 1) (r : Fin 16384),
    r.val = 2048 * (t.val / 8) + p.val →
    (outsAt0 V c t.val t.isLt).2.2 (ix2 p q) = Cert.Blocks.upTo (rowPiece (V c main_arg0) r) (t.val % 8 + 1) := by
  intro k
  induction k with
  | zero =>
    intro t ht p q r hr
    have h0 : t.val % 8 = 0 := by omega
    have h7 : ¬t.val % 8 = 7 := by omega
    rw [outsAt0_A V c t h0 h7, h0]
    dsimp only
    exact stepA V c t h0 h7 p q r hr
  | succ k ih =>
    intro t ht p q r hr
    have h64 : t.val < 64 := lt64 t
    by_cases h0 : t.val % 8 = 0
    · have h7 : ¬t.val % 8 = 7 := by omega
      rw [outsAt0_A V c t h0 h7, h0]
      dsimp only
      exact stepA V c t h0 h7 p q r hr
    · have hprev := ih ⟨t.val - 1, Nat.lt_of_le_of_lt (Nat.sub_le _ _) t.isLt⟩ (by show t.val - 1 = k; omega) p q r
        (by rw [hr]; show 2048 * (t.val / 8) + p.val = 2048 * ((t.val - 1) / 8) + p.val; omega)
      have hm : (t.val - 1) % 8 + 1 = t.val % 8 := by omega
      have hlt : t.val % 8 < 8 := Nat.mod_lt _ (by norm_num)
      rw [Cert.Blocks.upTo_succ _ _ hlt]
      by_cases h7 : t.val % 8 = 7
      · rw [outsAt0_C V c t h0 h7]
        dsimp only
        refine (stepC V c t h0 h7 _ p q r hr ⟨t.val % 8, hlt⟩ rfl).trans (congrArg (· + _) ?_)
        exact hprev.trans (by rw [show ((⟨t.val - 1, Nat.lt_of_le_of_lt (Nat.sub_le _ _) t.isLt⟩ : Fin cfg0.N).val % 8 + 1) = t.val % 8 from hm])
      · rw [outsAt0_B V c t h0 h7]
        dsimp only
        refine (stepB V c t h0 h7 _ p q r hr ⟨t.val % 8, hlt⟩ rfl).trans (congrArg (· + _) ?_)
        exact hprev.trans (by rw [show ((⟨t.val - 1, Nat.lt_of_le_of_lt (Nat.sub_le _ _) t.isLt⟩ : Fin cfg0.N).val % 8 + 1) = t.val % 8 from hm])

/-- The d array the region leaves. -/
def Dinv (c : Dev nD) : S16384x1.Idx → EReal := fun i => Cert.Spec.dinv (V c main_arg0) (i 0)
/-- The x1 array the region leaves. -/
def X1 (c : Dev nD) : S16384x256.Idx → EReal := fun i => Cert.Spec.x1 (V c main_arg0) (V c main_arg1) (i 0) (i 1)

/-- At a last step the scratch column after the accumulation holds the whole row sums. -/
theorem acc_last (c : Dev nD) (t : Fin cfg0.N) (h0 : ¬t.val % 8 = 0) (h7 : t.val % 8 = 7) (p : Fin 2048) (q : Fin 1) (r : Fin 16384)
    (hr : r.val = 2048 * (t.val / 8) + p.val) :
    k0_pay2 (F := Ideal) (outsAt0 V c (t.val - 1) (Nat.lt_of_le_of_lt (Nat.sub_le _ _) t.isLt)).2.2 (iblk0 V c 0 t) (ix2 p q)
      = Cert.Spec.deg (V c main_arg0) r := by
  have h := scratch_eq V c t.val t rfl p q r hr
  rw [outsAt0_C V c t h0 h7, h7] at h
  dsimp only at h
  exact ((congrFun (sC0_eq V c t h0 h7 _) (ix2 p q)).symm.trans h).trans (deg_eq _ r).symm

end Cert.KernelIdeal.Val0

end
-- ==== Proof.KI.R0Final.lean ====
/-
  Region 0's write-backs and the two arrays it leaves. A last step (k = 7) of row block i writes back, into rows
  2048·i … of the d array, rsqrt(max(deg, eps)) of those rows, and into the same rows of the x1 array the features times
  that. The eight row blocks tile both arrays, so after the region the d array is d and the x1 array is x1 everywhere.
-/
import proofs.«100336_j31576599560639_2_alg».proof.Proof.KI.R0Value

noncomputable section

open scoped BigOperators

namespace Cert.KernelIdeal.Val0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The row of the array a block row sits at. -/
def rowAt (t : Fin cfg0.N) (p : Fin 2048) : Fin 16384 := ⟨2048 * (t.val / 8) + p.val, by have := lt64 t; have := p.isLt; omega⟩

set_option maxRecDepth 200000 in
/-- What a last step writes back to the d array is its block of d. -/
theorem flushed3_eq (c : Dev nD) (t : Fin cfg0.N) (hf : (cfg0.win 3).flush t = true) :
    (dat0 V c).flushed 3 t = ((cfg0.win 3).blk t).view.read (Elt Ideal) (Dinv V c) := by
  have h7 : t.val % 8 = 7 := (flush0_3 t).mp hf
  have h0 : ¬t.val % 8 = 0 := by omega
  obtain ⟨-, -, -, -, -, -, e0, e1⟩ := idx0 t
  show (cfg0.win 3).cut (grid0.coords t) ((dat0 V c).after 3 t) = _
  rw [after0_3]
  funext y
  obtain ⟨p, q, rfl⟩ : ∃ (p : Fin 2048) (q : Fin 1), y = ix2 p q := ⟨y 0, y 1, eq_ix2 y⟩
  have hrow : (((cfg0.win 3).blk t).view.emb (ix2 p q)) 0 = rowAt t p :=
    Fin.ext (by show win0_3.index t (0 : Fin 2) * 2048 + 1 * p.val = 2048 * (t.val / 8) + p.val; rw [e0]; omega)
  show (outsAt0 V c t.val t.isLt).2.1 (ix2 p q) = Cert.Spec.dinv (V c main_arg0) ((((cfg0.win 3).blk t).view.emb (ix2 p q)) 0)
  rw [hrow]
  rw [outsAt0_C V c t h0 h7]
  dsimp only
  refine (congrFun (oC0_3_eq V c t h0 h7 _) (ix2 p q)).trans ?_
  refine (Cert.KernelIdeal.Pay0.pay3_apply _ _).trans ?_
  unfold Cert.Spec.dinv
  exact congrArg (fun z => Ideal.rsqrt (max z Cert.Spec.eps)) (acc_last V c t h0 h7 p q (rowAt t p) rfl)

set_option maxRecDepth 200000 in
/-- What a last step writes back to the x1 array is its block of x1. -/
theorem flushed2_eq (c : Dev nD) (t : Fin cfg0.N) (hf : (cfg0.win 2).flush t = true) :
    (dat0 V c).flushed 2 t = ((cfg0.win 2).blk t).view.read (Elt Ideal) (X1 V c) := by
  have h7 : t.val % 8 = 7 := (flush0_2 t).mp hf
  have h0 : ¬t.val % 8 = 0 := by omega
  obtain ⟨-, -, -, -, e0, e1, -, -⟩ := idx0 t
  show (cfg0.win 2).cut (grid0.coords t) ((dat0 V c).after 2 t) = _
  rw [after0_2]
  funext y
  obtain ⟨p, j, rfl⟩ : ∃ (p : Fin 2048) (j : Fin 256), y = ix2 p j := ⟨y 0, y 1, eq_ix2 y⟩
  have hrow : (((cfg0.win 2).blk t).view.emb (ix2 p j)) 0 = rowAt t p :=
    Fin.ext (by show win0_2.index t (0 : Fin 2) * 2048 + 1 * p.val = 2048 * (t.val / 8) + p.val; rw [e0]; omega)
  have hcol : (((cfg0.win 2).blk t).view.emb (ix2 p j)) 1 = j :=
    Fin.ext (by show win0_2.index t (1 : Fin 2) * 256 + 1 * j.val = j.val; rw [e1]; omega)
  show (outsAt0 V c t.val t.isLt).1 (ix2 p j) = Cert.Spec.x1 (V c main_arg0) (V c main_arg1) ((((cfg0.win 2).blk t).view.emb (ix2 p j)) 0) ((((cfg0.win 2).blk t).view.emb (ix2 p j)) 1)
  rw [hrow, hcol]
  rw [outsAt0_C V c t h0 h7]
  dsimp only
  refine (congrFun (oC0_2_eq V c t h0 h7 _) (ix2 p j)).trans ?_
  refine (Cert.KernelIdeal.Pay0.pay4_apply _ _ p j).trans ?_
  unfold Cert.Spec.x1 Cert.Spec.dinv
  rw [acc_last V c t h0 h7 p 0 (rowAt t p) rfl, blk1_apply V c t p j (rowAt t p) rfl]

/-- The last step of row block (row / 2048) covers the row. -/
def lastOf (r : ℕ) (hr : r < 16384) : Fin cfg0.N := ⟨8 * (r / 2048) + 7, by rw [show cfg0.N = 64 from N_0]; omega⟩

theorem cover3 (i : S16384x1.Idx) : ∃ t : Fin cfg0.N, (cfg0.win 3).flush t = true ∧ i ∈ ((cfg0.win 3).blk t).view.set := by
  have hi0 : (i 0).val < 16384 := (i 0).isLt
  have hi1 : (i 1).val < 1 := (i 1).isLt
  refine ⟨lastOf (i 0).val hi0, (flush0_3 _).mpr (by show (8 * ((i 0).val / 2048) + 7) % 8 = 7; omega), ?_⟩
  obtain ⟨-, -, -, -, -, -, e0, e1⟩ := idx0 (lastOf (i 0).val hi0)
  have hv : (lastOf (i 0).val hi0).val / 8 = (i 0).val / 2048 := by show (8 * ((i 0).val / 2048) + 7) / 8 = _; omega
  show i ∈ ((View.whole main_v0_1).slice (win0_3.rect (lastOf (i 0).val hi0))).set
  rw [View.set_slice_whole, Rect.mem_set_unit]
  intro a
  match a with
  | ⟨0, _⟩ =>
    show win0_3.index (lastOf (i 0).val hi0) (0 : Fin 2) * 2048 ≤ (i 0).val ∧ (i 0).val < win0_3.index (lastOf (i 0).val hi0) (0 : Fin 2) * 2048 + 2048
    rw [e0, hv]; omega
  | ⟨1, _⟩ =>
    show win0_3.index (lastOf (i 0).val hi0) (1 : Fin 2) * 1 ≤ (i 1).val ∧ (i 1).val < win0_3.index (lastOf (i 0).val hi0) (1 : Fin 2) * 1 + 1
    rw [e1]; omega

theorem cover2 (i : S16384x256.Idx) : ∃ t : Fin cfg0.N, (cfg0.win 2).flush t = true ∧ i ∈ ((cfg0.win 2).blk t).view.set := by
  have hi0 : (i 0).val < 16384 := (i 0).isLt
  have hi1 : (i 1).val < 256 := (i 1).isLt
  refine ⟨lastOf (i 0).val hi0, (flush0_2 _).mpr (by show (8 * ((i 0).val / 2048) + 7) % 8 = 7; omega), ?_⟩
  obtain ⟨-, -, -, -, e0, e1, -, -⟩ := idx0 (lastOf (i 0).val hi0)
  have hv : (lastOf (i 0).val hi0).val / 8 = (i 0).val / 2048 := by show (8 * ((i 0).val / 2048) + 7) / 8 = _; omega
  show i ∈ ((View.whole main_v0_0).slice (win0_2.rect (lastOf (i 0).val hi0))).set
  rw [View.set_slice_whole, Rect.mem_set_unit]
  intro a
  match a with
  | ⟨0, _⟩ =>
    show win0_2.index (lastOf (i 0).val hi0) (0 : Fin 2) * 2048 ≤ (i 0).val ∧ (i 0).val < win0_2.index (lastOf (i 0).val hi0) (0 : Fin 2) * 2048 + 2048
    rw [e0, hv]; omega
  | ⟨1, _⟩ =>
    show win0_2.index (lastOf (i 0).val hi0) (1 : Fin 2) * 256 ≤ (i 1).val ∧ (i 1).val < win0_2.index (lastOf (i 0).val hi0) (1 : Fin 2) * 256 + 256
    rw [e1]; omega

/-- After the region the d array holds d, -/
theorem final3 (c : Dev nD) : (dat0 V c).arrAt 3 cfg0.N = Dinv V c :=
  (dat0 V c).arrAt_eq_of_cover 3 (Dinv V c) (flushed3_eq V c) cover3
/-- and the x1 array holds x1. -/
theorem final2 (c : Dev nD) : (dat0 V c).arrAt 2 cfg0.N = X1 V c :=
  (dat0 V c).arrAt_eq_of_cover 2 (X1 V c) (flushed2_eq V c) cover2

end Cert.KernelIdeal.Val0

end
-- ==== Proof.KI.R1Pieces.lean ====
/-
  Region 1: what the stores of each control case leave, as the body's arithmetic applied to what the point was given.
  Every store of this kernel covers its whole buffer, so a buffer ends at the payload of its last store, and a load
  that follows a store reads that payload back:
    k = 0      accumulator = (zero block) + (adjacency block) · (this step's 2048 rows of x1)
    k > 0      accumulator = (previous accumulator) + (adjacency block) · (this step's 2048 rows of x1)
    k = 7      output buffer = ((accumulator) scaled row by row by d) · (weights)
-/
import proofs.«100336_j31576599560639_2_alg».proof.Proof.KI.R1Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2' : (![0, 0] : Fin 2 → Nat) = fun _ => 0 := funext fun a => by match a with | ⟨0, _⟩ => rfl | ⟨1, _⟩ => rfl

/-- The 2048 rows of x1 the step at point `t` multiplies with: rows k·2048 … of the resident x1 buffer. -/
def x1rows (c : Dev nD) (t : Fin cfg1.N) : Vec F S2048x256 .f32 :=
  View.ld (S := S16384x256) (iblk1 V c 1 t) (Rect.unit (s := S16384x256) (k1_off1 (grid1.coords t)) S2048x256.size (k1_off1_inb (grid1.coords t)))

theorem sA1_eq (c : Dev nD) (t : Fin cfg1.N) (h0 : t.val % 8 = 0) (h7 : ¬t.val % 8 = 7) :
    sA1 V c t h0 h7 = k1_pay2 (x1rows V c t) (k1_pay1 (F := F)) (iblk1 V c 0 t) := by
  unfold sA1
  rw [View.read_writes_eq_canon _ _ _ (scoverA1 V c t h0 h7)]
  unfold runA1 kernelRun1_A
  dsimp only
  sl_unfold_words
  rw [View.canon_cons_unit_zero hz2', View.readCov_unit_zero _ hz2']
  simp only [View.readAt_eq_ld, Memref.IsWhole.read_unread, View.ld_unit_zero (S := S1024x2048) hz2', View.ld_unit_zero (S := S1024x256) hz2', View.ld_unit_zero (S := S1024x1) hz2', View.ld_unit_zero (S := S256x256) hz2']
  rfl

theorem sB1_eq (c : Dev nD) (t : Fin cfg1.N) (h0 : ¬t.val % 8 = 0) (h7 : ¬t.val % 8 = 7) (xs0 : Vec F S1024x256 .f32) :
    sB1 V c t h0 h7 xs0 = k1_pay2 (x1rows V c t) xs0 (iblk1 V c 0 t) := by
  unfold sB1
  rw [View.read_writes_eq_canon _ _ _ (scoverB1 V c t h0 h7 xs0)]
  unfold runB1 kernelRun1_B
  dsimp only
  sl_unfold_words
  rw [View.canon_unit_zero hz2']
  simp only [View.readAt_eq_ld, Memref.IsWhole.read_unread, View.ld_unit_zero (S := S1024x2048) hz2', View.ld_unit_zero (S := S1024x256) hz2', View.ld_unit_zero (S := S1024x1) hz2', View.ld_unit_zero (S := S256x256) hz2']
  exact congrArg (fun s => k1_pay2 (x1rows V c t) s (iblk1 V c 0 t)) ((Memref.isWhole_whole cc1_scratch0).read_unread xs0)

theorem sC1_eq (c : Dev nD) (t : Fin cfg1.N) (h0 : ¬t.val % 8 = 0) (h7 : t.val % 8 = 7) (xs0 : Vec F S1024x256 .f32) :
    sC1 V c t h0 h7 xs0 = k1_pay2 (x1rows V c t) xs0 (iblk1 V c 0 t) := by
  unfold sC1
  rw [View.read_writes_eq_canon _ _ _ (scoverC1 V c t h0 h7 xs0)]
  unfold runC1 kernelRun1_C
  dsimp only
  sl_unfold_words
  rw [View.canon_unit_zero hz2']
  simp only [View.readAt_eq_ld, Memref.IsWhole.read_unread, View.ld_unit_zero (S := S1024x2048) hz2', View.ld_unit_zero (S := S1024x256) hz2', View.ld_unit_zero (S := S1024x1) hz2', View.ld_unit_zero (S := S256x256) hz2']
  exact congrArg (fun s => k1_pay2 (x1rows V c t) s (iblk1 V c 0 t)) ((Memref.isWhole_whole cc1_scratch0).read_unread xs0)

theorem oC1_4_eq (c : Dev nD) (t : Fin cfg1.N) (h0 : ¬t.val % 8 = 0) (h7 : t.val % 8 = 7) (xs0 : Vec F S1024x256 .f32) :
    oC1_4 V c t h0 h7 xs0 = k1_pay3 (k1_pay2 (x1rows V c t) xs0 (iblk1 V c 0 t)) (iblk1 V c 2 t) (iblk1 V c 3 t) := by
  unfold oC1_4
  rw [View.read_writes_eq_canon _ _ _ (coverC1_4 V c t h0 h7 xs0)]
  unfold runC1 kernelRun1_C
  dsimp only
  sl_unfold_words
  rw [View.canon_unit_zero hz2', View.readCov_unit_zero _ hz2']
  simp only [View.readAt_eq_ld, Memref.IsWhole.read_unread, View.ld_unit_zero (S := S1024x2048) hz2', View.ld_unit_zero (S := S1024x256) hz2', View.ld_unit_zero (S := S1024x1) hz2', View.ld_unit_zero (S := S256x256) hz2']
  exact congrArg (fun s => k1_pay3 (k1_pay2 (x1rows V c t) s (iblk1 V c 0 t)) (iblk1 V c 2 t) (iblk1 V c 3 t)) ((Memref.isWhole_whole cc1_scratch0).read_unread xs0)

end Cert.KernelIdeal.Hand

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.KI.R1Pay.lean ====
/-
  Region 1's arithmetic read at an entry, over the extended reals:
    the zero block is 0 everywhere;
    the accumulation step adds to entry (p, j) of the accumulator the product of row p of the adjacency block with column j
    of the step's rows of x1;
    the epilogue's entry (p, j) is the sum over k of (accumulator (p, k) · d p) · weight (k, j).
-/
import proofs.«100336_j31576599560639_2_alg».proof.Proof.Gen.KernelIdeal.Skeleton
import proofs.«100336_j31576599560639_2_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.KernelIdeal.Pay1

open Idealize.ShloMosaic Idealize.ShloMosaic.ValueIdx Cert.KernelIdeal Cert.KernelIdeal.Gen

theorem pay1_apply (y : S1024x256.Idx) : k1_pay1 (F := Ideal) y = 0 := by
  unfold k1_pay1
  simp only [shapeCast_self]
  exact Ideal.ofBits_zero_f32

theorem pay2_apply (v6 : Vec Ideal S2048x256 .f32) (v8 : Vec Ideal S1024x256 .f32) (v9 : Vec Ideal S1024x2048 .f32) (p : Fin 1024) (j : Fin 256) :
    k1_pay2 (F := Ideal) v6 v8 v9 (ix2 p j) = v8 (ix2 p j) + ∑ k : Fin 2048, v9 (ix2 p k) * v6 (ix2 k j) := by
  unfold k1_pay2
  simp only [shapeCast_self]
  rw [addf_apply]
  exact congrArg (v8 (ix2 p j) + ·) (Cert.Lib.matmul_plain_zero_apply (some .fp32) v9 v6 p j)

theorem pay3_apply (v18 : Vec Ideal S1024x256 .f32) (v19 : Vec Ideal S1024x1 .f32) (v23 : Vec Ideal S256x256 .f32) (p : Fin 1024) (j : Fin 256) :
    k1_pay3 (F := Ideal) v18 v19 v23 (ix2 p j) = ∑ k : Fin 256, (v18 (ix2 p k) * v19 (ix2 p 0)) * v23 (ix2 k j) := by
  unfold k1_pay3
  simp only [shapeCast_self]
  refine (Cert.Lib.matmul_plain_zero_apply (some .fp32) _ v23 p j).trans (Finset.sum_congr rfl fun k _ => ?_)
  rw [mulf_apply]
  refine congrArg (fun z => v18 (ix2 p k) * z * v23 (ix2 k j)) ?_
  refine broadcastTo_apply _ Gen.broadcasts_S1024x1_S1024x256 (ix2 p k) (ix2 p 0) (fun a => ?_)
  match a with
  | ⟨0, _⟩ => show p.val = if (1024 : Nat) = 1 then 0 else p.val; rw [if_neg (by decide)]
  | ⟨1, _⟩ => show (0 : Nat) = if (1 : Nat) = 1 then 0 else k.val; rw [if_pos rfl]

end Cert.KernelIdeal.Pay1

end
-- ==== Proof.KI.R1Value.lean ====
/-
  Region 1's accumulator as a function of the arrays the region finds, over the extended reals.
  The grid point t = 8·i + k works on rows 1024·i … of the adjacency matrix and its columns 2048·k …, against rows
  2048·k … of the resident x1 array; so after point t the accumulator holds, at (p, j), the first k + 1 of the eight
  2048-long pieces of Σ_l A(1024·i + p, l) · x1(l, j).
-/
import proofs.«100336_j31576599560639_2_alg».proof.Proof.KI.R1Pieces
import proofs.«100336_j31576599560639_2_alg».proof.Proof.KI.R1Pay
import proofs.«100336_j31576599560639_2_alg».proof.Proof.BlockSums

noncomputable section

open scoped BigOperators

namespace Cert.KernelIdeal.Val1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem lt128 (t : Fin cfg1.N) : t.val < 128 := lt_of_lt_of_eq t.isLt (show cfg1.N = 128 from N_1)

/-- The printed index maps over the 128 grid points, and the grid's second coordinate. -/
theorem idx1 : ∀ t : Fin cfg1.N,
    win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = 0
    ∧ win1_4.index t (0 : Fin 2) = t.val / 8 ∧ win1_4.index t (1 : Fin 2) = 0
    ∧ ((grid1.coords t) 1).val = t.val % 8 :=
  (by decide +kernel : ∀ t : Fin grid1.N, _)

/-- The adjacency block at point t is rows 1024·(t/8) … and columns 2048·(t%8) … of the matrix. -/
theorem blk0_apply (c : Dev nD) (t : Fin cfg1.N) (p : Fin 1024) (k : Fin 2048) (r k' : Fin 16384)
    (hr : r.val = 1024 * (t.val / 8) + p.val) (hk : k'.val = 2048 * (t.val % 8) + k.val) :
    (iblk1 V c 0 t : Vec Ideal S1024x2048 .f32) (ix2 p k) = V c main_arg0 (ix2 r k') := by
  obtain ⟨e0, e1, -⟩ := idx1 t
  unfold iblk1
  rw [View.read_apply]
  show V c main_arg0 _ = V c main_arg0 _
  congr 1
  funext a
  apply Fin.ext
  match a with
  | ⟨0, _⟩ => show win1_0.index t (0 : Fin 2) * 1024 + 1 * p.val = r.val; rw [e0, hr]; omega
  | ⟨1, _⟩ => show win1_0.index t (1 : Fin 2) * 2048 + 1 * k.val = k'.val; rw [e1, hk]; omega

/-- The resident x1 buffer is the whole x1 array. -/
theorem blk1_apply (c : Dev nD) (t : Fin cfg1.N) (y : S16384x256.Idx) :
    (iblk1 V c 1 t : Vec Ideal S16384x256 .f32) y = V c main_v0_0 y := by
  obtain ⟨-, -, e0, e1, -⟩ := idx1 t
  unfold iblk1
  rw [View.read_apply]
  show V c main_v0_0 _ = V c main_v0_0 _
  congr 1
  funext a
  apply Fin.ext
  match a with
  | ⟨0, _⟩ => show win1_1.index t (0 : Fin 2) * 16384 + 1 * (y 0).val = (y 0).val; rw [e0]; omega
  | ⟨1, _⟩ => show win1_1.index t (1 : Fin 2) * 256 + 1 * (y 1).val = (y 1).val; rw [e1]; omega

/-- The rows of x1 the step at point t multiplies with are rows 2048·(t%8) … of the x1 array. -/
theorem x1rows_apply (c : Dev nD) (t : Fin cfg1.N) (k : Fin 2048) (j : Fin 256) (k' : Fin 16384)
    (hk : k'.val = 2048 * (t.val % 8) + k.val) :
    (x1rows V c t : Vec Ideal S2048x256 .f32) (ix2 k j) = V c main_v0_0 (ix2 k' j) := by
  obtain ⟨-, -, -, -, -, -, -, -, -, -, eg⟩ := idx1 t
  unfold x1rows
  show (iblk1 V c 1 t : Vec Ideal S16384x256 .f32) _ = _
  rw [blk1_apply]
  congr 1
  funext a
  apply Fin.ext
  match a with
  | ⟨0, _⟩ =>
    show k1_off1 (grid1.coords t) 0 + 1 * k.val = k'.val
    rw [k1_off1_eq, hk, ← eg]; show 2048 * ((grid1.coords t) 1).val + 1 * k.val = _; omega
  | ⟨1, _⟩ =>
    show k1_off1 (grid1.coords t) 1 + 1 * j.val = j.val
    rw [k1_off1_eq]; show 0 + 1 * j.val = j.val; omega

/-- The d block at point t is rows 1024·(t/8) … of the d array. -/
theorem blk2_apply (c : Dev nD) (t : Fin cfg1.N) (p : Fin 1024) (q : Fin 1) (r : Fin 16384)
    (hr : r.val = 1024 * (t.val / 8) + p.val) :
    (iblk1 V c 2 t : Vec Ideal S1024x1 .f32) (ix2 p q) = V c main_v0_1 (ix2 r q) := by
  obtain ⟨-, -, -, -, e0, e1, -⟩ := idx1 t
  unfold iblk1
  rw [View.read_apply]
  show V c main_v0_1 _ = V c main_v0_1 _
  congr 1
  funext a
  apply Fin.ext
  match a with
  | ⟨0, _⟩ => show win1_2.index t (0 : Fin 2) * 1024 + 1 * p.val = r.val; rw [e0, hr]; omega
  | ⟨1, _⟩ => show win1_2.index t (1 : Fin 2) * 1 + 1 * q.val = q.val; rw [e1]; omega

/-- The resident weight buffer is the whole weight matrix. -/
theorem blk3_apply (c : Dev nD) (t : Fin cfg1.N) (y : S256x256.Idx) :
    (iblk1 V c 3 t : Vec Ideal S256x256 .f32) y = V c main_arg2 y := by
  obtain ⟨-, -, -, -, -, -, e0, e1, -⟩ := idx1 t
  unfold iblk1
  rw [View.read_apply]
  show V c main_arg2 _ = V c main_arg2 _
  congr 1
  funext a
  apply Fin.ext
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

/-- The four arrays region 1 reads, as arrays of extended reals. -/
abbrev aA (c : Dev nD) : S16384x16384.Idx → EReal := V c main_arg0
abbrev aY (c : Dev nD) : S16384x256.Idx → EReal := V c main_v0_0
abbrev aD (c : Dev nD) : S16384x1.Idx → EReal := V c main_v0_1
abbrev aW (c : Dev nD) : S256x256.Idx → EReal := V c main_arg2

/-- Piece b of the contraction of row r of the adjacency matrix with column j of x1: its terms b·2048 … -/
def prodPiece (A : S16384x16384.Idx → EReal) (Y : S16384x256.Idx → EReal) (r : Fin 16384) (j : Fin 256) (b : Fin 8) : EReal :=
  ∑ k : Fin 2048, A (ix2 r (Cert.Blocks.col b k)) * Y (ix2 (Cert.Blocks.col b k) j)

/-- The whole contraction is the eighth running total of its pieces. -/
theorem prod_eq (A : S16384x16384.Idx → EReal) (Y : S16384x256.Idx → EReal) (r : Fin 16384) (j : Fin 256) :
    (∑ l : Fin 16384, A (ix2 r l) * Y (ix2 l j)) = Cert.Blocks.upTo (prodPiece A Y r j) 8 :=
  Cert.Blocks.sum_eq_upTo fun l => A (ix2 r l) * Y (ix2 l j)

/-- One accumulation step at point t adds piece t % 8. -/
theorem step_eq (c : Dev nD) (t : Fin cfg1.N) (s : Vec Ideal S1024x256 .f32) (p : Fin 1024) (j : Fin 256) (r : Fin 16384)
    (hr : r.val = 1024 * (t.val / 8) + p.val) (b : Fin 8) (hb : b.val = t.val % 8) :
    k1_pay2 (F := Ideal) (x1rows V c t) s (iblk1 V c 0 t) (ix2 p j) = s (ix2 p j) + prodPiece (V c main_arg0) (V c main_v0_0) r j b := by
  refine (Cert.KernelIdeal.Pay1.pay2_apply (x1rows V c t) s (iblk1 V c 0 t) p j).trans ?_
  refine congrArg (s (ix2 p j) + ·) (Finset.sum_congr rfl fun k _ => ?_)
  have hk : (Cert.Blocks.col b k).val = 2048 * (t.val % 8) + k.val := by rw [Cert.Blocks.col_val, hb]; omega
  rw [blk0_apply V c t p k r _ hr hk, x1rows_apply V c t k j _ hk]

theorem stepA (c : Dev nD) (t : Fin cfg1.N) (h0 : t.val % 8 = 0) (h7 : ¬t.val % 8 = 7) (p : Fin 1024) (j : Fin 256) (r : Fin 16384)
    (hr : r.val = 1024 * (t.val / 8) + p.val) :
    sA1 V c t h0 h7 (ix2 p j) = Cert.Blocks.upTo (prodPiece (V c main_arg0) (V c main_v0_0) r j) 1 :=
  (congrFun (sA1_eq V c t h0 h7) (ix2 p j)).trans ((step_eq V c t _ p j r hr ⟨0, by norm_num⟩ h0.symm).trans (by
    rw [Cert.KernelIdeal.Pay1.pay1_apply, Cert.Blocks.upTo_succ _ 0 (by norm_num), Cert.Blocks.upTo_zero]))
theorem stepB (c : Dev nD) (t : Fin cfg1.N) (h0 : ¬t.val % 8 = 0) (h7 : ¬t.val % 8 = 7) (xs : Vec Ideal S1024x256 .f32) (p : Fin 1024) (j : Fin 256) (r : Fin 16384)
    (hr : r.val = 1024 * (t.val / 8) + p.val) (b : Fin 8) (hb : b.val = t.val % 8) :
    sB1 V c t h0 h7 xs (ix2 p j) = xs (ix2 p j) + prodPiece (V c main_arg0) (V c main_v0_0) r j b :=
  (congrFun (sB1_eq V c t h0 h7 xs) (ix2 p j)).trans (step_eq V c t xs p j r hr b hb)
theorem stepC (c : Dev nD) (t : Fin cfg1.N) (h0 : ¬t.val % 8 = 0) (h7 : t.val % 8 = 7) (xs : Vec Ideal S1024x256 .f32) (p : Fin 1024) (j : Fin 256) (r : Fin 16384)
    (hr : r.val = 1024 * (t.val / 8) + p.val) (b : Fin 8) (hb : b.val = t.val % 8) :
    sC1 V c t h0 h7 xs (ix2 p j) = xs (ix2 p j) + prodPiece (V c main_arg0) (V c main_v0_0) r j b :=
  (congrFun (sC1_eq V c t h0 h7 xs) (ix2 p j)).trans (step_eq V c t xs p j r hr b hb)

/-- After point n the accumulator holds the first n % 8 + 1 pieces of its entries' contractions. -/
theorem acc_eq (c : Dev nD) : ∀ (k : ℕ) (t : Fin cfg1.N), t.val = k → ∀ (p : Fin 1024) (j : Fin 256) (r : Fin 16384),
    r.val = 1024 * (t.val / 8) + p.val →
    (outsAt1 V c t.val t.isLt).2 (ix2 p j) = Cert.Blocks.upTo (prodPiece (V c main_arg0) (V c main_v0_0) r j) (t.val % 8 + 1) := by
  intro k
  induction k with
  | zero =>
    intro t ht p j r hr
    have h0 : t.val % 8 = 0 := by omega
    have h7 : ¬t.val % 8 = 7 := by omega
    rw [outsAt1_A V c t h0 h7, h0]
    dsimp only
    exact stepA V c t h0 h7 p j r hr
  | succ k ih =>
    intro t ht p j r hr
    have h128 : t.val < 128 := lt128 t
    by_cases h0 : t.val % 8 = 0
    · have h7 : ¬t.val % 8 = 7 := by omega
      rw [outsAt1_A V c t h0 h7, h0]
      dsimp only
      exact stepA V c t h0 h7 p j r hr
    · have hprev := ih ⟨t.val - 1, Nat.lt_of_le_of_lt (Nat.sub_le _ _) t.isLt⟩ (by show t.val - 1 = k; omega) p j r
        (by rw [hr]; show 1024 * (t.val / 8) + p.val = 1024 * ((t.val - 1) / 8) + p.val; omega)
      have hm : (t.val - 1) % 8 + 1 = t.val % 8 := by omega
      have hlt : t.val % 8 < 8 := Nat.mod_lt _ (by norm_num)
      rw [Cert.Blocks.upTo_succ _ _ hlt]
      by_cases h7 : t.val % 8 = 7
      · rw [outsAt1_C V c t h0 h7]
        dsimp only
        refine (stepC V c t h0 h7 _ p j r hr ⟨t.val % 8, hlt⟩ rfl).trans (congrArg (· + _) ?_)
        exact hprev.trans (by rw [show ((⟨t.val - 1, Nat.lt_of_le_of_lt (Nat.sub_le _ _) t.isLt⟩ : Fin cfg1.N).val % 8 + 1) = t.val % 8 from hm])
      · rw [outsAt1_B V c t h0 h7]
        dsimp only
        refine (stepB V c t h0 h7 _ p j r hr ⟨t.val % 8, hlt⟩ rfl).trans (congrArg (· + _) ?_)
        exact hprev.trans (by rw [show ((⟨t.val - 1, Nat.lt_of_le_of_lt (Nat.sub_le _ _) t.isLt⟩ : Fin cfg1.N).val % 8 + 1) = t.val % 8 from hm])

/-- At a last step the accumulator after the accumulation holds the whole contractions. -/
theorem acc_last (c : Dev nD) (t : Fin cfg1.N) (h0 : ¬t.val % 8 = 0) (h7 : t.val % 8 = 7) (p : Fin 1024) (j : Fin 256) (r : Fin 16384)
    (hr : r.val = 1024 * (t.val / 8) + p.val) :
    k1_pay2 (F := Ideal) (x1rows V c t) (outsAt1 V c (t.val - 1) (Nat.lt_of_le_of_lt (Nat.sub_le _ _) t.isLt)).2 (iblk1 V c 0 t) (ix2 p j)
      = ∑ l : Fin 16384, aA V c (ix2 r l) * aY V c (ix2 l j) := by
  have h := acc_eq V c t.val t rfl p j r hr
  rw [outsAt1_C V c t h0 h7, h7] at h
  dsimp only at h
  exact ((congrFun (sC1_eq V c t h0 h7 _) (ix2 p j)).symm.trans h).trans (prod_eq _ _ r j).symm

end Cert.KernelIdeal.Val1

end
-- ==== Proof.KI.R1Final.lean ====
/-
  Region 1's write-backs and the result array. A last step (k = 7) of row block i writes back, into rows 1024·i … of the
  result array, Σ_k ((Σ_l A(r, l) · x1(l, k)) · d r) · W(k, j) for those rows. The sixteen row blocks tile the array.
-/
import proofs.«100336_j31576599560639_2_alg».proof.Proof.KI.R1Value

noncomputable section

open scoped BigOperators

namespace Cert.KernelIdeal.Val1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The result array as a function of the four arrays region 1 reads. -/
def Out1 (A : S16384x16384.Idx → EReal) (Y : S16384x256.Idx → EReal) (D : S16384x1.Idx → EReal) (W : S256x256.Idx → EReal) :
    S16384x256.Idx → EReal := fun i =>
  ∑ k : Fin 256, ((∑ l : Fin 16384, A (ix2 (i 0) l) * Y (ix2 l k)) * D (ix2 (i 0) 0)) * W (ix2 k (i 1))

def rowAt (t : Fin cfg1.N) (p : Fin 1024) : Fin 16384 := ⟨1024 * (t.val / 8) + p.val, by have := lt128 t; have := p.isLt; omega⟩

set_option maxRecDepth 200000 in
/-- What a last step writes back is its block of the result. -/
theorem flushed4_eq (c : Dev nD) (t : Fin cfg1.N) (hf : (cfg1.win 4).flush t = true) :
    (dat1 V c).flushed 4 t = ((cfg1.win 4).blk t).view.read (Elt Ideal) (Out1 (V c main_arg0) (V c main_v0_0) (V c main_v0_1) (V c main_arg2)) := by
  have h7 : t.val % 8 = 7 := (flush1_4 t).mp hf
  have h0 : ¬t.val % 8 = 0 := by omega
  obtain ⟨-, -, -, -, -, -, -, -, e0, e1, -⟩ := idx1 t
  show (cfg1.win 4).cut (grid1.coords t) ((dat1 V c).after 4 t) = _
  rw [after1_4]
  funext y
  obtain ⟨p, j, rfl⟩ : ∃ (p : Fin 1024) (j : Fin 256), y = ix2 p j := ⟨y 0, y 1, eq_ix2 y⟩
  have hrow : (((cfg1.win 4).blk t).view.emb (ix2 p j)) 0 = rowAt t p :=
    Fin.ext (by show win1_4.index t (0 : Fin 2) * 1024 + 1 * p.val = 1024 * (t.val / 8) + p.val; rw [e0]; omega)
  have hcol : (((cfg1.win 4).blk t).view.emb (ix2 p j)) 1 = j :=
    Fin.ext (by show win1_4.index t (1 : Fin 2) * 256 + 1 * j.val = j.val; rw [e1]; omega)
  show (outsAt1 V c t.val t.isLt).1 (ix2 p j) = ∑ k : Fin 256, ((∑ l : Fin 16384, aA V c (ix2 ((((cfg1.win 4).blk t).view.emb (ix2 p j)) 0) l) * aY V c (ix2 l k)) * aD V c (ix2 ((((cfg1.win 4).blk t).view.emb (ix2 p j)) 0) 0)) * aW V c (ix2 k ((((cfg1.win 4).blk t).view.emb (ix2 p j)) 1))
  rw [hrow, hcol, outsAt1_C V c t h0 h7]
  dsimp only
  refine (congrFun (oC1_4_eq V c t h0 h7 _) (ix2 p j)).trans ?_
  refine (Cert.KernelIdeal.Pay1.pay3_apply _ _ _ p j).trans (Finset.sum_congr rfl fun k _ => ?_)
  rw [acc_last V c t h0 h7 p k (rowAt t p) rfl, blk2_apply V c t p 0 (rowAt t p) rfl, blk3_apply]

def lastOf (r : ℕ) (hr : r < 16384) : Fin cfg1.N := ⟨8 * (r / 1024) + 7, by rw [show cfg1.N = 128 from N_1]; omega⟩

theorem cover4 (i : S16384x256.Idx) : ∃ t : Fin cfg1.N, (cfg1.win 4).flush t = true ∧ i ∈ ((cfg1.win 4).blk t).view.set := by
  have hi0 : (i 0).val < 16384 := (i 0).isLt
  have hi1 : (i 1).val < 256 := (i 1).isLt
  refine ⟨lastOf (i 0).val hi0, (flush1_4 _).mpr (by show (8 * ((i 0).val / 1024) + 7) % 8 = 7; omega), ?_⟩
  obtain ⟨-, -, -, -, -, -, -, -, e0, e1, -⟩ := idx1 (lastOf (i 0).val hi0)
  have hv : (lastOf (i 0).val hi0).val / 8 = (i 0).val / 1024 := by show (8 * ((i 0).val / 1024) + 7) / 8 = _; omega
  show i ∈ ((View.whole main_v1).slice (win1_4.rect (lastOf (i 0).val hi0))).set
  rw [View.set_slice_whole, Rect.mem_set_unit]
  intro a
  match a with
  | ⟨0, _⟩ =>
    show win1_4.index (lastOf (i 0).val hi0) (0 : Fin 2) * 1024 ≤ (i 0).val ∧ (i 0).val < win1_4.index (lastOf (i 0).val hi0) (0 : Fin 2) * 1024 + 1024
    rw [e0, hv]; omega
  | ⟨1, _⟩ =>
    show win1_4.index (lastOf (i 0).val hi0) (1 : Fin 2) * 256 ≤ (i 1).val ∧ (i 1).val < win1_4.index (lastOf (i 0).val hi0) (1 : Fin 2) * 256 + 256
    rw [e1]; omega

/-- After the region the result array holds `Out1` of the four arrays the region read. -/
theorem final4 (c : Dev nD) : (dat1 V c).arrAt 4 cfg1.N = Out1 (V c main_arg0) (V c main_v0_0) (V c main_v0_1) (V c main_arg2) :=
  (dat1 V c).arrAt_eq_of_cover 4 _ (flushed4_eq V c) cover4

end Cert.KernelIdeal.Val1

end
-- ==== Proof.Bridge.lean ====
/-
  The idealized kernel computes the specification. Region 1 finds the adjacency matrix and the weights as launched and, in
  region 0's two output arrays, x1 and d; so what its write-backs leave, Σ_k ((Σ_l A(r,l) · x1(l,k)) · d r) · W(k,j), is
  the specification's result entry by entry.
-/
import proofs.«100336_j31576599560639_2_alg».proof.Proof.KI.Run
import proofs.«100336_j31576599560639_2_alg».proof.Proof.KI.R0Final
import proofs.«100336_j31576599560639_2_alg».proof.Proof.KI.R1Final
import proofs.«100336_j31576599560639_2_alg».proof.Proof.Spec

noncomputable section

open scoped BigOperators

namespace Cert.KernelIdeal.Bridge

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (m : (ℓ : Loc nD τ sig) → Buf (Elt Ideal) ℓ) (ρ : Dev nD → PrngReg)

/-- With x1 and d in place of the two intermediate arrays the region-1 result is the specification's. -/
theorem out1_eq (A : S16384x16384.Idx → EReal) (X : S16384x256.Idx → EReal) (W : S256x256.Idx → EReal) :
    Cert.KernelIdeal.Val1.Out1 A (fun i => Cert.Spec.x1 A X (i 0) (i 1)) (fun i => Cert.Spec.dinv A (i 0)) W = Cert.Spec.G A X W := by
  funext i
  unfold Cert.KernelIdeal.Val1.Out1 Cert.Spec.G Cert.Spec.out Cert.Spec.x3 Cert.Spec.x2
  rfl

/-- The result array after the run is the specification of the launch contents of the three arguments. -/
theorem result_eq (c : Dev nD) :
    (dat1 (V1 m ρ) c).arrAt 4 cfg1.N
      = Cert.Spec.G (m ((c : Thread nD τ).loc main_arg0)) (m ((c : Thread nD τ).loc main_arg1)) (m ((c : Thread nD τ).loc main_arg2)) := by
  have e0 : V1 m ρ c main_arg0 = m ((c : Thread nD τ).loc main_arg0) := W1_main_arg0 m ρ c
  have e1 : V1 m ρ c main_v0_0 = Cert.KernelIdeal.Val0.X1 (V0 m ρ) c := (V1_main_v0_0 m ρ c).trans (Cert.KernelIdeal.Val0.final2 (V0 m ρ) c)
  have e2 : V1 m ρ c main_v0_1 = Cert.KernelIdeal.Val0.Dinv (V0 m ρ) c := (V1_main_v0_1 m ρ c).trans (Cert.KernelIdeal.Val0.final3 (V0 m ρ) c)
  have e3 : V1 m ρ c main_arg2 = m ((c : Thread nD τ).loc main_arg2) := W1_main_arg2 m ρ c
  rw [Cert.KernelIdeal.Val1.final4, e0, e1, e2, e3]
  exact out1_eq _ _ _

end Cert.KernelIdeal.Bridge

end
-- ==== Proof.RefIsG.lean ====
/-
  The reference computes the specification. Read one operation at a time at an index, the reference's result is
  Σ_k ((Σ_l A(r,l) · (X(l,k) · d l)) · d r) · W(k,j) with d = (max(deg, eps))^(−1/2); the power is the reciprocal
  square root because its base is at least the positive real eps.
-/
import proofs.«100336_j31576599560639_2_alg».proof.Proof.Gen.ReferenceIdeal.Read
import proofs.«100336_j31576599560639_2_alg».proof.Proof.Spec

noncomputable section

open scoped BigOperators

namespace Cert.ReferenceIdeal.RefValue

open Cert.ReferenceIdeal Cert.ReferenceIdeal.Read Idealize.ShloMosaic Idealize.ShloMosaic.ValueIdx

theorem idx0 (i : S16384.Idx) (k : Fin 16384) : idx_main_v0 i k = ix2 (i 0) k :=
  funext fun a => by match a with | ⟨0, _⟩ => rfl | ⟨1, _⟩ => rfl
theorem lidx8 (i : S16384x256.Idx) (k : Fin 16384) : lidx_main_v8 i k = ix2 (i 0) k :=
  funext fun a => by match a with | ⟨0, _⟩ => rfl | ⟨1, _⟩ => rfl
theorem ridx8 (i : S16384x256.Idx) (k : Fin 16384) : ridx_main_v8 i k = ix2 k (i 1) :=
  funext fun a => by match a with | ⟨0, _⟩ => rfl | ⟨1, _⟩ => rfl
theorem lidx12 (i : S16384x256.Idx) (k : Fin 256) : lidx_main_v12 i k = ix2 (i 0) k :=
  funext fun a => by match a with | ⟨0, _⟩ => rfl | ⟨1, _⟩ => rfl
theorem ridx12 (i : S16384x256.Idx) (k : Fin 256) : ridx_main_v12 i k = ix2 k (i 1) :=
  funext fun a => by match a with | ⟨0, _⟩ => rfl | ⟨1, _⟩ => rfl

variable (A : (⟨S16384x16384, .f32⟩ : BufTy).Contents (Elt Ideal)) (X : (⟨S16384x256, .f32⟩ : BufTy).Contents (Elt Ideal))
  (W : (⟨S256x256, .f32⟩ : BufTy).Contents (Elt Ideal))

/-- The reference's scale factor of row r is d r. -/
theorem v4_eq (i : S16384.Idx) : val_main_v4 (F := Ideal) A i = Cert.Spec.dinv A (i 0) := by
  rw [val_main_v4_apply, val_main_v2_apply, val_main_v0_apply, val_main_v1_apply, val_main_v3_apply, val_main_cst_apply,
    val_main_cst_0_apply, val_main_cst_1_apply]
  simp only [idx0]
  show Ideal.pow (max (Ideal.ofBits .f32 0x00000000#32 + ∑ k : Fin 16384, A (ix2 (i 0) k)) (Ideal.ofBits .f32 0x2B8CBCCC#32)) (Ideal.ofBits .f32 0xBF000000#32) = _
  rw [Ideal.ofBits_zero_f32, zero_add]
  exact Cert.Spec.pow_neg_half_eq_rsqrt _

/-- The reference's result array is the specification's. -/
theorem result_eq : val_main_v12 (F := Ideal) A X W = Cert.Spec.G A X W := by
  funext i
  rw [val_main_v12_apply]
  unfold Cert.Spec.G Cert.Spec.out
  refine Finset.sum_congr rfl fun k _ => ?_
  rw [val_main_v11_apply, val_main_v8_apply, val_main_v10_apply, val_main_v9_apply, v4_eq, lidx12, ridx12]
  show (∑ l : Fin 16384, A (lidx_main_v8 (ix2 (i 0) k) l) * val_main_v7 (F := Ideal) A X (ridx_main_v8 (ix2 (i 0) k) l)) * Cert.Spec.dinv A (i 0) * W (ix2 k (i 1)) = _
  unfold Cert.Spec.x3 Cert.Spec.x2
  refine congrArg (· * Cert.Spec.dinv A (i 0) * W (ix2 k (i 1))) (Finset.sum_congr rfl fun l _ => ?_)
  rw [val_main_v7_apply, val_main_v6_apply, val_main_v5_apply, v4_eq, lidx8, ridx8]
  rfl

end Cert.ReferenceIdeal.RefValue

end
-- ==== Proof.lean ====
/-
  The certificate of the degree-normalised propagation layer (D^-1/2 · A · D^-1/2 · X · W on a dense 16384 × 16384
  adjacency matrix) computed by two pipelined kernels — the first sums the rows of A block by block into a scratch column
  and at the last block of a row turns the sums into d = rsqrt(max(deg, eps)) and x1 = X · d; the second accumulates
  A · x1 block by block into a scratch accumulator and at the last block scales by d and multiplies by W — against the
  same formula written with whole-array operations.

  The three frames: both kernel programs run through their two regions, each region's scratch carried from grid point to
  grid point by the region invariant; the reference is a straight line of whole-array operations.
  The idealization rewrote nothing, so it preserves the program as it stands.
  Over the extended reals both programs compute the specification (Proof/Spec.lean): the kernels' block-by-block sums
  are the reference's long sums regrouped (only commutativity and associativity of +), and the reference's power with
  exponent −1/2 is the kernels' reciprocal square root because its base is at least the positive clamp eps.
-/
import proofs.«100336_j31576599560639_2_alg».proof.Defs
import proofs.«100336_j31576599560639_2_alg».proof.Proof.K.Run
import proofs.«100336_j31576599560639_2_alg».proof.Proof.KI.Run
import proofs.«100336_j31576599560639_2_alg».proof.Proof.Bridge
import proofs.«100336_j31576599560639_2_alg».proof.Proof.RefIsG
import proofs.«100336_j31576599560639_2_alg».proof.Proof.Gen.Kernel
import proofs.«100336_j31576599560639_2_alg».proof.Proof.Gen.KernelIdeal
import proofs.«100336_j31576599560639_2_alg».proof.Proof.Gen.ReferenceIdeal
import proofs.«100336_j31576599560639_2_alg».proof.Proof.Gen.ReferenceIdeal.Run
import proofs.«100336_j31576599560639_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (Cert.KernelIdeal.Bridge.result_eq m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
